-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x160000 : Shape := ⟨2, ![2, 160000]⟩
abbrev S160000 : Shape := ⟨1, ![160000]⟩
abbrev S10000x64 : Shape := ⟨2, ![10000, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S160000 : S_.BroadcastsInDim S160000 (![] : Fin 0 → Fin S160000.rank)
  reducesTo_S160000_S_d0 : S160000.ReducesTo [0] S_
  bcast_S_S10000x64 : S_.BroadcastsInDim S10000x64 (![] : Fin 0 → Fin S10000x64.rank)
  reducesTo_S10000x64_S_d0_1 : S10000x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S128x64 .f32) (main_arg9 : FVec F S64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S10000x256 .f32) (main_arg1 : IVec S2x160000 32) (main_arg2 : FVec F S160000 .f32) (main_arg3 : FVec F S10000x64 .f32) (main_arg4 : FVec F S256x128 .f32) (main_arg5 : FVec F S128 .f32) (main_arg6 : FVec F S128x64 .f32) (main_arg7 : FVec F S64 .f32) (main_arg8 : FVec F S128x64 .f32) (main_arg9 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S160000 .f32 := Host.absf main_arg2
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S10000x64 .f32 := Host.absf main_arg3
  let main_cst_2 : FVec F S_ .f32 := constant S_ .f32 0x7F800000#32
  let main_v10 : FVec F S10000x64 .f32 := broadcastInDim S10000x64 ![] bcast_S_S10000x64 main_cst_2
  let main_v11 : IVec S10000x64 1 := cmpf .olt main_v9 main_v10
  let main_c_3 : IVec S_ 1 := constantI S_ 1 1#1
  let main_v12 : IVec S_ 1 := (fun x v => Host.reduce IntOp.andi x v reducesTo_S10000x64_S_d0_1 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S10000x256 : Shape := ⟨2, ![10000, 256]⟩
abbrev S2x160000 : Shape := ⟨2, ![2, 160000]⟩
abbrev S160000 : Shape := ⟨1, ![160000]⟩
abbrev S10000x64 : Shape := ⟨2, ![10000, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S10000 : Shape := ⟨1, ![10000]⟩
abbrev S1x10000 : Shape := ⟨2, ![1, 10000]⟩
abbrev S2x10000 : Shape := ⟨2, ![2, 10000]⟩
abbrev S2x170000 : Shape := ⟨2, ![2, 170000]⟩
abbrev S_ : Shape := ⟨0, ![]⟩
abbrev S170000 : Shape := ⟨1, ![170000]⟩
abbrev S1x170000 : Shape := ⟨2, ![1, 170000]⟩
abbrev S170000x1 : Shape := ⟨2, ![170000, 1]⟩
abbrev S10000x128 : Shape := ⟨2, ![10000, 128]⟩
abbrev S170000x128 : Shape := ⟨2, ![170000, 128]⟩
abbrev S1x128 : Shape := ⟨2, ![1, 128]⟩
abbrev S128x128 : Shape := ⟨2, ![128, 128]⟩
abbrev S10240x64 : Shape := ⟨2, ![10240, 64]⟩
abbrev S10000x10000 : Shape := ⟨2, ![10000, 10000]⟩
abbrev S2048x64 : Shape := ⟨2, ![2048, 64]⟩
abbrev S2048x2048 : Shape := ⟨2, ![2048, 2048]⟩

abbrev nBuf : Space → Nat
  | .hbm => 116
  | .vmem => 6
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S160000, .f32⟩
  | .hbm, ⟨3, _⟩ => ⟨S10000x64, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S10000, .i32⟩
  | .hbm, ⟨11, _⟩ => ⟨S1x10000, .i32⟩
  | .hbm, ⟨12, _⟩ => ⟨S1x10000, .i32⟩
  | .hbm, ⟨13, _⟩ => ⟨S2x10000, .i32⟩
  | .hbm, ⟨14, _⟩ => ⟨S2x170000, .i32⟩
  | .hbm, ⟨15, _⟩ => ⟨S_, .f32⟩
  | .hbm, ⟨16, _⟩ => ⟨S10000, .f32⟩
  | .hbm, ⟨17, _⟩ => ⟨S170000, .f32⟩
  | .hbm, ⟨18, _⟩ => ⟨S1x170000, .i32⟩
  | .hbm, ⟨19, _⟩ => ⟨S170000, .i32⟩
  | .hbm, ⟨20, _⟩ => ⟨S1x170000, .i32⟩
  | .hbm, ⟨21, _⟩ => ⟨S170000, .i32⟩
  | .hbm, ⟨22, _⟩ => ⟨S_, .f32⟩
  | .hbm, ⟨23, _⟩ => ⟨S10000, .f32⟩
  | .hbm, ⟨24, _⟩ => ⟨S170000x1, .i32⟩
  | .hbm, ⟨25, _⟩ => ⟨S10000, .f32⟩
  | .hbm, ⟨26, _⟩ => ⟨S_, .f32⟩
  | .hbm, ⟨27, _⟩ => ⟨S10000, .f32⟩
  | .hbm, ⟨28, _⟩ => ⟨S10000, .i1⟩
  | .hbm, ⟨29, _⟩ => ⟨S_, .f32⟩
  | .hbm, ⟨30, _⟩ => ⟨S10000, .f32⟩
  | .hbm, ⟨31, _⟩ => ⟨S10000, .i1⟩
  | .hbm, ⟨32, _⟩ => ⟨S_, .f32⟩
  | .hbm, ⟨33, _⟩ => ⟨S_, .f32⟩
  | .hbm, ⟨34, _⟩ => ⟨S10000, .f32⟩
  | .hbm, ⟨35, _⟩ => ⟨S10000, .f32⟩
  | .hbm, ⟨36, _⟩ => ⟨S10000, .f32⟩
  | .hbm, ⟨37, _⟩ => ⟨S_, .f32⟩
  | .hbm, ⟨38, _⟩ => ⟨S_, .f32⟩
  | .hbm, ⟨39, _⟩ => ⟨S10000, .f32⟩
  | .hbm, ⟨40, _⟩ => ⟨S10000, .f32⟩
  | .hbm, ⟨41, _⟩ => ⟨S_, .i32⟩
  | .hbm, ⟨42, _⟩ => ⟨S170000, .i32⟩
  | .hbm, ⟨43, _⟩ => ⟨S170000, .i1⟩
  | .hbm, ⟨44, _⟩ => ⟨S_, .i32⟩
  | .hbm, ⟨45, _⟩ => ⟨S170000, .i32⟩
  | .hbm, ⟨46, _⟩ => ⟨S170000, .i32⟩
  | .hbm, ⟨47, _⟩ => ⟨S170000, .i32⟩
  | .hbm, ⟨48, _⟩ => ⟨S170000x1, .i32⟩
  | .hbm, ⟨49, _⟩ => ⟨S170000, .f32⟩
  | .hbm, ⟨50, _⟩ => ⟨S170000, .f32⟩
  | .hbm, ⟨51, _⟩ => ⟨S_, .i32⟩
  | .hbm, ⟨52, _⟩ => ⟨S170000, .i32⟩
  | .hbm, ⟨53, _⟩ => ⟨S170000, .i1⟩
  | .hbm, ⟨54, _⟩ => ⟨S_, .i32⟩
  | .hbm, ⟨55, _⟩ => ⟨S170000, .i32⟩
  | .hbm, ⟨56, _⟩ => ⟨S170000, .i32⟩
  | .hbm, ⟨57, _⟩ => ⟨S170000, .i32⟩
  | .hbm, ⟨58, _⟩ => ⟨S170000x1, .i32⟩
  | .hbm, ⟨59, _⟩ => ⟨S170000, .f32⟩
  | .hbm, ⟨60, _⟩ => ⟨S170000, .f32⟩
  | .hbm, ⟨61, _⟩ => ⟨S10000x128, .f32⟩
  | .hbm, ⟨62, _⟩ => ⟨S170000x1, .f32⟩
  | .hbm, ⟨63, _⟩ => ⟨S_, .i32⟩
  | .hbm, ⟨64, _⟩ => ⟨S170000, .i32⟩
  | .hbm, ⟨65, _⟩ => ⟨S170000, .i1⟩
  | .hbm, ⟨66, _⟩ => ⟨S_, .i32⟩
  | .hbm, ⟨67, _⟩ => ⟨S170000, .i32⟩
  | .hbm, ⟨68, _⟩ => ⟨S170000, .i32⟩
  | .hbm, ⟨69, _⟩ => ⟨S170000, .i32⟩
  | .hbm, ⟨70, _⟩ => ⟨S170000x1, .i32⟩
  | .hbm, ⟨71, _⟩ => ⟨S170000x128, .f32⟩
  | .hbm, ⟨72, _⟩ => ⟨S170000x128, .f32⟩
  | .hbm, ⟨73, _⟩ => ⟨S170000x128, .f32⟩
  | .hbm, ⟨74, _⟩ => ⟨S_, .f32⟩
  | .hbm, ⟨75, _⟩ => ⟨S10000x128, .f32⟩
  | .hbm, ⟨76, _⟩ => ⟨S170000x1, .i32⟩
  | .hbm, ⟨77, _⟩ => ⟨S10000x128, .f32⟩
  | .hbm, ⟨78, _⟩ => ⟨S1x128, .f32⟩
  | .hbm, ⟨79, _⟩ => ⟨S10000x128, .f32⟩
  | .hbm, ⟨80, _⟩ => ⟨S10000x128, .f32⟩
  | .hbm, ⟨81, _⟩ => ⟨S_, .f32⟩
  | .hbm, ⟨82, _⟩ => ⟨S10000x128, .f32⟩
  | .hbm, ⟨83, _⟩ => ⟨S10000x128, .f32⟩
  | .hbm, ⟨84, _⟩ => ⟨S128x128, .f32⟩
  | .hbm, ⟨85, _⟩ => ⟨S128, .f32⟩
  | .hbm, ⟨86, _⟩ => ⟨S10000x128, .f32⟩
  | .hbm, ⟨87, _⟩ => ⟨S170000x1, .f32⟩
  | .hbm, ⟨88, _⟩ => ⟨S_, .i32⟩
  | .hbm, ⟨89, _⟩ => ⟨S170000, .i32⟩
  | .hbm, ⟨90, _⟩ => ⟨S170000, .i1⟩
  | .hbm, ⟨91, _⟩ => ⟨S_, .i32⟩
  | .hbm, ⟨92, _⟩ => ⟨S170000, .i32⟩
  | .hbm, ⟨93, _⟩ => ⟨S170000, .i32⟩
  | .hbm, ⟨94, _⟩ => ⟨S170000, .i32⟩
  | .hbm, ⟨95, _⟩ => ⟨S170000x1, .i32⟩
  | .hbm, ⟨96, _⟩ => ⟨S170000x128, .f32⟩
  | .hbm, ⟨97, _⟩ => ⟨S170000x128, .f32⟩
  | .hbm, ⟨98, _⟩ => ⟨S170000x128, .f32⟩
  | .hbm, ⟨99, _⟩ => ⟨S_, .f32⟩
  | .hbm, ⟨100, _⟩ => ⟨S10000x128, .f32⟩
  | .hbm, ⟨101, _⟩ => ⟨S170000x1, .i32⟩
  | .hbm, ⟨102, _⟩ => ⟨S10000x128, .f32⟩
  | .hbm, ⟨103, _⟩ => ⟨S1x128, .f32⟩
  | .hbm, ⟨104, _⟩ => ⟨S10000x128, .f32⟩
  | .hbm, ⟨105, _⟩ => ⟨S10000x128, .f32⟩
  | .hbm, ⟨106, _⟩ => ⟨S10000x64, .f32⟩
  | .hbm, ⟨107, _⟩ => ⟨S10000x64, .f32⟩
  | .hbm, ⟨108, _⟩ => ⟨S10000x64, .f32⟩
  | .hbm, ⟨109, _⟩ => ⟨S10000x64, .f32⟩
  | .hbm, ⟨110, _⟩ => ⟨S10000x64, .f32⟩
  | .hbm, ⟨111, _⟩ => ⟨S_, .i32⟩
  | .hbm, ⟨112, _⟩ => ⟨S_, .f32⟩
  | .hbm, ⟨113, _⟩ => ⟨S10240x64, .f32⟩
  | .hbm, ⟨114, _⟩ => ⟨S10240x64, .bf16⟩
  | .hbm, ⟨115, _⟩ => ⟨S10000x10000, .f32⟩
  | .local _ .vmem, ⟨0, _⟩ => ⟨S2048x64, .bf16⟩
  | .local _ .vmem, ⟨1, _⟩ => ⟨S2048x64, .bf16⟩
  | .local _ .vmem, ⟨2, _⟩ => ⟨S2048x64, .bf16⟩
  | .local _ .vmem, ⟨3, _⟩ => ⟨S2048x64, .bf16⟩
  | .local _ .vmem, ⟨4, _⟩ => ⟨S2048x2048, .f32⟩
  | .local _ .vmem, ⟨5, _⟩ => ⟨S2048x2048, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call2_cst : Ref sig .tc := ⟨.hbm, 81, rfl⟩
abbrev main_call2_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_11 : Ref sig .tc := ⟨.hbm, 88, rfl⟩
abbrev main_v59 : Ref sig .tc := ⟨.hbm, 89, rfl⟩
abbrev main_v60 : Ref sig .tc := ⟨.hbm, 90, rfl⟩
abbrev main_c_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_14 : Ref sig .tc := ⟨.hbm, 111, rfl⟩
abbrev main_call3_v0 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S10000_S1x10000_1 : S10000.BroadcastsInDim S1x10000 (![1] : Fin 1 → Fin S1x10000.rank)
  concatenates_S1x10000_S1x10000_S2x10000_d0 : Shape.Concatenates [S1x10000, S1x10000] S2x10000 0
  concatenates_S2x160000_S2x10000_S2x170000_d1 : Shape.Concatenates [S2x160000, S2x10000] S2x170000 1
  bcast_S_S10000 : S_.BroadcastsInDim S10000 (![] : Fin 0 → Fin S10000.rank)
  concatenates_S160000_S10000_S170000_d0 : Shape.Concatenates [S160000, S10000] S170000 0
  slices_S2x170000_S1x170000_0_0 : S2x170000.Slices ![0, 0] S1x170000
  shapeCasts_S1x170000_S170000 : S1x170000.ShapeCasts S170000
  slices_S2x170000_S1x170000_1_0 : S2x170000.Slices ![1, 0] S1x170000
  bcast_S170000_S170000x1_0 : S170000.BroadcastsInDim S170000x1 (![0] : Fin 1 → Fin S170000x1.rank)
  bcast_S_S170000 : S_.BroadcastsInDim S170000 (![] : Fin 0 → Fin S170000.rank)
  bcast_S170000x1_S170000x128_0_1 : S170000x1.BroadcastsInDim S170000x128 (![0, 1] : Fin 2 → Fin S170000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  concatenates_S128x64_S128x64_S128x128_d1 : Shape.Concatenates [S128x64, S128x64] S128x128 1
  concatenates_S64_S64_S128_d0 : Shape.Concatenates [S64, S64] S128 0
  slices_S10000x128_S10000x64_0_0 : S10000x128.Slices ![0, 0] S10000x64
  slices_S10000x128_S10000x64_0_64 : S10000x128.Slices ![0, 64] S10000x64
  pads_S10000x64_S10240x64_02400_000 : S10000x64.Pads (![0, 0] : Fin 2 → Nat) ![240, 0] ![0, 0] S10240x64
  h_S_ : 0 < S_.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S10000x256_S256x128_S10000x128_1_0_0_1_n_n_wf : DotDims.WF S10000x256 S256x128 S10000x128 [1] [0] [0] [1] [] []
  gather_S10000x128_S170000x1_S170000x128_1_0_n_n_0_1_1128_wf : GatherDims.WF S10000x128 S170000x1 S170000x128 [1] [0] [] [0] [] 1 ![1, 128]
  scatter_S10000x128_S170000x1_S170000x128_1_0_0_1_wf : ScatterDims.WF S10000x128 S170000x1 S170000x128 [1] [0] [0] 1
  dot_S10000x128_S128x128_S10000x128_1_0_0_1_n_n_wf : DotDims.WF S10000x128 S128x128 S10000x128 [1] [0] [0] [1] [] []
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S10240x64.size a
  hwx0_0 : ∀ i : grid0.Coords, EltTy.bits .bf16 = 32 ∨ (Rect.block (s := S10240x64) S2048x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S10240x64.size a
  hwx0_1 : ∀ i : grid0.Coords, EltTy.bits .bf16 = 32 ∨ (Rect.block (s := S10240x64) S2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x2048.size a < S10000x10000.size a
  hwx0_2 : ∀ i : grid0.Coords, EltTy.bits .f32 = 32 ∨ (Rect.unit (s := S10000x10000) (fun a => cc0_transform_2 i a * S2048x2048.size a) (fun a => (Pipeline.Clip.of (cc0_transform_2 i a) (S2048x2048.size a) (S10000x10000.size a)).extent (S2048x2048.size a)) fun a => Pipeline.Clip.inb (Pipeline.Clip.ok_of (hstart0_2 i a))).WholeWords (EltTy.packing .f32)
  hwxs0_2 : ∀ i : grid0.Coords, EltTy.bits .f32 = 32 ∨ (Rect.unit (s := S2048x2048) (fun _ => 0) (fun a => (Pipeline.Clip.of (cc0_transform_2 i a) (S2048x2048.size a) (S10000x10000.size a)).extent (S2048x2048.size a)) fun a => (Nat.zero_add _).trans_le (Pipeline.Clip.extent_le (Pipeline.Clip.ok_of (hstart0_2 i a)))).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S170000x1_S170000x128_1_0_n_n_0_1_1128 : GatherDims S10000x128 S170000x1 S170000x128 where
  offsetDims := [1]
  collapsedSliceDims := [0]
  operandBatchingDims := []
  startIndicesBatchingDims := []
  startIndexMap := [0]
  indexVectorDim := 1
  sliceSizes := ![1, 128]
  wf := gather_S10000x128_S170000x1_S170000x128_1_0_n_n_0_1_1128_wf
def scatter_S10000x128_S170000x1_S170000x128_1_0_0_1 : ScatterDims S10000x128 S170000x1 S170000x128 where
  updateWindowDims := [1]
  insertedWindowDims := [0]
  scatterDimsToOperandDims := [0]
  indexVectorDim := 1
  wf := scatter_S10000x128_S170000x1_S170000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_v80) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v80) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v81) S2048x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x160000 : Shape := ⟨2, ![2, 160000]⟩
abbrev S160000 : Shape := ⟨1, ![160000]⟩
abbrev S10000x64 : Shape := ⟨2, ![10000, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S10000 : Shape := ⟨1, ![10000]⟩
abbrev S1x10000 : Shape := ⟨2, ![1, 10000]⟩
abbrev S2x10000 : Shape := ⟨2, ![2, 10000]⟩
abbrev S2x170000 : Shape := ⟨2, ![2, 170000]⟩
abbrev S_ : Shape := ⟨0, ![]⟩
abbrev S170000 : Shape := ⟨1, ![170000]⟩
abbrev S1x170000 : Shape := ⟨2, ![1, 170000]⟩
abbrev S170000x1 : Shape := ⟨2, ![170000, 1]⟩
abbrev S10000x128 : Shape := ⟨2, ![10000, 128]⟩
abbrev S170000x128 : Shape := ⟨2, ![170000, 128]⟩
abbrev S1x128 : Shape := ⟨2, ![1, 128]⟩
abbrev S170000x64 : Shape := ⟨2, ![170000, 64]⟩
abbrev S1x64 : Shape := ⟨2, ![1, 64]⟩
abbrev S64x10000 : Shape := ⟨2, ![64, 10000]⟩
abbrev S10000x10000 : Shape := ⟨2, ![10000, 10000]⟩

abbrev nBuf : Space → Nat
  | .hbm => 137
  | .vmem => 0
  | .smem => 0
  | _ => 0

abbrev hbmTy0_0 (i : Nat) : BufTy := match i % 128 with
  | 0 => ⟨S10000x256, .f32⟩
  | 1 => ⟨S2x160000, .i32⟩
  | 2 => ⟨S160000, .f32⟩
  | 3 => ⟨S10000x64, .f32⟩
  | 4 => ⟨S256x128, .f32⟩
  | 5 => ⟨S128, .f32⟩
  | 6 => ⟨S128x64, .f32⟩
  | 7 => ⟨S64, .f32⟩
  | 8 => ⟨S128x64, .f32⟩
  | 9 => ⟨S64, .f32⟩
  | 10 => ⟨S10000, .i32⟩
  | 11 => ⟨S1x10000, .i32⟩
  | 12 => ⟨S1x10000, .i32⟩
  | 13 => ⟨S2x10000, .i32⟩
  | 14 => ⟨S2x170000, .i32⟩
  | 15 => ⟨S_, .f32⟩
  | 16 => ⟨S10000, .f32⟩
  | 17 => ⟨S170000, .f32⟩
  | 18 => ⟨S1x170000, .i32⟩
  | 19 => ⟨S170000, .i32⟩
  | 20 => ⟨S1x170000, .i32⟩
  | 21 => ⟨S170000, .i32⟩
  | 22 => ⟨S_, .f32⟩
  | 23 => ⟨S10000, .f32⟩
  | 24 => ⟨S170000x1, .i32⟩
  | 25 => ⟨S10000, .f32⟩
  | 26 => ⟨S_, .f32⟩
  | 27 => ⟨S10000, .f32⟩
  | 28 => ⟨S10000, .i1⟩
  | 29 => ⟨S_, .f32⟩
  | 30 => ⟨S10000, .f32⟩
  | 31 => ⟨S10000, .i1⟩
  | 32 => ⟨S_, .f32⟩
  | 33 => ⟨S_, .f32⟩
  | 34 => ⟨S10000, .f32⟩
  | 35 => ⟨S10000, .f32⟩
  | 36 => ⟨S10000, .f32⟩
  | 37 => ⟨S_, .f32⟩
  | 38 => ⟨S_, .f32⟩
  | 39 => ⟨S10000, .f32⟩
  | 40 => ⟨S10000, .f32⟩
  | 41 => ⟨S_, .i32⟩
  | 42 => ⟨S170000, .i32⟩
  | 43 => ⟨S170000, .i1⟩
  | 44 => ⟨S_, .i32⟩
  | 45 => ⟨S170000, .i32⟩
  | 46 => ⟨S170000, .i32⟩
  | 47 => ⟨S170000, .i32⟩
  | 48 => ⟨S170000x1, .i32⟩
  | 49 => ⟨S170000, .f32⟩
  | 50 => ⟨S170000, .f32⟩
  | 51 => ⟨S_, .i32⟩
  | 52 => ⟨S170000, .i32⟩
  | 53 => ⟨S170000, .i1⟩
  | 54 => ⟨S_, .i32⟩
  | 55 => ⟨S170000, .i32⟩
  | 56 => ⟨S170000, .i32⟩
  | 57 => ⟨S170000, .i32⟩
  | 58 => ⟨S170000x1, .i32⟩
  | 59 => ⟨S170000, .f32⟩
  | 60 => ⟨S170000, .f32⟩
  | 61 => ⟨S10000x128, .f32⟩
  | 62 => ⟨S170000x1, .f32⟩
  | 63 => ⟨S_, .i32⟩
  | 64 => ⟨S170000, .i32⟩
  | 65 => ⟨S170000, .i1⟩
  | 66 => ⟨S_, .i32⟩
  | 67 => ⟨S170000, .i32⟩
  | 68 => ⟨S170000, .i32⟩
  | 69 => ⟨S170000, .i32⟩
  | 70 => ⟨S170000x1, .i32⟩
  | 71 => ⟨S170000x128, .f32⟩
  | 72 => ⟨S170000x128, .f32⟩
  | 73 => ⟨S170000x128, .f32⟩
  | 74 => ⟨S_, .f32⟩
  | 75 => ⟨S10000x128, .f32⟩
  | 76 => ⟨S170000x1, .i32⟩
  | 77 => ⟨S10000x128, .f32⟩
  | 78 => ⟨S1x128, .f32⟩
  | 79 => ⟨S10000x128, .f32⟩
  | 80 => ⟨S10000x128, .f32⟩
  | 81 => ⟨S_, .f32⟩
  | 82 => ⟨S10000x128, .f32⟩
  | 83 => ⟨S10000x128, .f32⟩
  | 84 => ⟨S10000x64, .f32⟩
  | 85 => ⟨S170000x1, .f32⟩
  | 86 => ⟨S_, .i32⟩
  | 87 => ⟨S170000, .i32⟩
  | 88 => ⟨S170000, .i1⟩
  | 89 => ⟨S_, .i32⟩
  | 90 => ⟨S170000, .i32⟩
  | 91 => ⟨S170000, .i32⟩
  | 92 => ⟨S170000, .i32⟩
  | 93 => ⟨S170000x1, .i32⟩
  | 94 => ⟨S170000x64, .f32⟩
  | 95 => ⟨S170000x64, .f32⟩
  | 96 => ⟨S170000x64, .f32⟩
  | 97 => ⟨S_, .f32⟩
  | 98 => ⟨S10000x64, .f32⟩
  | 99 => ⟨S170000x1, .i32⟩
  | 100 => ⟨S10000x64, .f32⟩
  | 101 => ⟨S1x64, .f32⟩
  | 102 => ⟨S10000x64, .f32⟩
  | 103 => ⟨S10000x64, .f32⟩
  | 104 => ⟨S10000x64, .f32⟩
  | 105 => ⟨S170000x1, .f32⟩
  | 106 => ⟨S_, .i32⟩
  | 107 => ⟨S170000, .i32⟩
  | 108 => ⟨S170000, .i1⟩
  | 109 => ⟨S_, .i32⟩
  | 110 => ⟨S170000, .i32⟩
  | 111 => ⟨S170000, .i32⟩
  | 112 => ⟨S170000, .i32⟩
  | 113 => ⟨S170000x1, .i32⟩
  | 114 => ⟨S170000x64, .f32⟩
  | 115 => ⟨S170000x64, .f32⟩
  | 116 => ⟨S170000x64, .f32⟩
  | 117 => ⟨S_, .f32⟩
  | 118 => ⟨S10000x64, .f32⟩
  | 119 => ⟨S170000x1, .i32⟩
  | 120 => ⟨S10000x64, .f32⟩
  | 121 => ⟨S1x64, .f32⟩
  | 122 => ⟨S10000x64, .f32⟩
  | 123 => ⟨S10000x64, .f32⟩
  | 124 => ⟨S10000x64, .f32⟩
  | 125 => ⟨S10000x64, .f32⟩
  | 126 => ⟨S10000x64, .f32⟩
  | 127 => ⟨S64x10000, .f32⟩
  | _ => ⟨S10000x256, .f32⟩

abbrev hbmTy0_1 (i : Nat) : BufTy := match i % 128 with
  | 0 => ⟨S10000x10000, .f32⟩
  | 1 => ⟨S10000x10000, .f32⟩
  | 2 => ⟨S10000x10000, .f32⟩
  | 3 => ⟨S_, .f32⟩
  | 4 => ⟨S10000x10000, .f32⟩
  | 5 => ⟨S10000x10000, .f32⟩
  | 6 => ⟨S_, .f32⟩
  | 7 => ⟨S10000x10000, .f32⟩
  | 8 => ⟨S10000x10000, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call2_cst : Ref sig .tc := ⟨.hbm, 81, rfl⟩
abbrev main_call2_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_11 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_14 : Ref sig .tc := ⟨.hbm, 106, rfl⟩
abbrev main_v74 : Ref sig .tc := ⟨.hbm, 107, rfl⟩
abbrev main_v75 : Ref sig .tc := ⟨.hbm, 108, rfl⟩
abbrev main_c_15 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_16 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_17 : Ref sig .tc := ⟨.hbm, 131, rfl⟩
abbrev main_v96 : Ref sig .tc := ⟨.hbm, 132, rfl⟩
abbrev main_v97 : Ref sig .tc := ⟨.hbm, 133, rfl⟩
abbrev main_cst_18 : Ref sig .tc := ⟨.hbm, 134, rfl⟩
abbrev main_v98 : Ref sig .tc := ⟨.hbm, 135, rfl⟩
abbrev main_v99 : Ref sig .tc := ⟨.hbm, 136, rfl⟩

abbrev nD : Nat := 1
abbrev τ : Topo := Topo.v7x

variable {F : FTy → Type} [FloatOps F]

class Facts₀ : Prop where
  bcast_S10000_S1x10000_1 : S10000.BroadcastsInDim S1x10000 (![1] : Fin 1 → Fin S1x10000.rank)
  concatenates_S1x10000_S1x10000_S2x10000_d0 : Shape.Concatenates [S1x10000, S1x10000] S2x10000 0
  concatenates_S2x160000_S2x10000_S2x170000_d1 : Shape.Concatenates [S2x160000, S2x10000] S2x170000 1
  bcast_S_S10000 : S_.BroadcastsInDim S10000 (![] : Fin 0 → Fin S10000.rank)
  concatenates_S160000_S10000_S170000_d0 : Shape.Concatenates [S160000, S10000] S170000 0
  slices_S2x170000_S1x170000_0_0 : S2x170000.Slices ![0, 0] S1x170000
  shapeCasts_S1x170000_S170000 : S1x170000.ShapeCasts S170000
  slices_S2x170000_S1x170000_1_0 : S2x170000.Slices ![1, 0] S1x170000
  bcast_S170000_S170000x1_0 : S170000.BroadcastsInDim S170000x1 (![0] : Fin 1 → Fin S170000x1.rank)
  bcast_S_S170000 : S_.BroadcastsInDim S170000 (![] : Fin 0 → Fin S170000.rank)
  bcast_S170000x1_S170000x128_0_1 : S170000x1.BroadcastsInDim S170000x128 (![0, 1] : Fin 2 → Fin S170000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S170000x1_S170000x64_0_1 : S170000x1.BroadcastsInDim S170000x64 (![0, 1] : Fin 2 → Fin S170000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S10000x64_S64x10000_1_0 : S10000x64.Transposes [1, 0] S64x10000
  bcast_S_S10000x10000 : S_.BroadcastsInDim S10000x10000 (![] : Fin 0 → Fin S10000x10000.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S10000x256_S256x128_S10000x128_1_0_0_1_n_n_wf : DotDims.WF S10000x256 S256x128 S10000x128 [1] [0] [0] [1] [] []
  gather_S10000x128_S170000x1_S170000x128_1_0_n_n_0_1_1128_wf : GatherDims.WF S10000x128 S170000x1 S170000x128 [1] [0] [] [0] [] 1 ![1, 128]
  scatter_S10000x128_S170000x1_S170000x128_1_0_0_1_wf : ScatterDims.WF S10000x128 S170000x1 S170000x128 [1] [0] [0] 1
  dot_S10000x128_S128x64_S10000x64_1_0_0_1_n_n_wf : DotDims.WF S10000x128 S128x64 S10000x64 [1] [0] [0] [1] [] []
  gather_S10000x64_S170000x1_S170000x64_1_0_n_n_0_1_164_wf : GatherDims.WF S10000x64 S170000x1 S170000x64 [1] [0] [] [0] [] 1 ![1, 64]
  scatter_S10000x64_S170000x1_S170000x64_1_0_0_1_wf : ScatterDims.WF S10000x64 S170000x1 S170000x64 [1] [0] [0] 1
  dot_S10000x64_S64x10000_S10000x10000_1_0_0_1_n_n_wf : DotDims.WF S10000x64 S64x10000 S10000x10000 [1] [0] [0] [1] [] []

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S170000x1_S170000x128_1_0_n_n_0_1_1128 : GatherDims S10000x128 S170000x1 S170000x128 where
  offsetDims := [1]
  collapsedSliceDims := [0]
  operandBatchingDims := []
  startIndicesBatchingDims := []
  startIndexMap := [0]
  indexVectorDim := 1
  sliceSizes := ![1, 128]
  wf := gather_S10000x128_S170000x1_S170000x128_1_0_n_n_0_1_1128_wf
def scatter_S10000x128_S170000x1_S170000x128_1_0_0_1 : ScatterDims S10000x128 S170000x1 S170000x128 where
  updateWindowDims := [1]
  insertedWindowDims := [0]
  scatterDimsToOperandDims := [0]
  indexVectorDim := 1
  wf := scatter_S10000x128_S170000x1_S170000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x64_S170000x1_S170000x64_1_0_n_n_0_1_164 : GatherDims S10000x64 S170000x1 S170000x64 where
  offsetDims := [1]
  collapsedSliceDims := [0]
  operandBatchingDims := []
  startIndicesBatchingDims := []
  startIndexMap := [0]
  indexVectorDim := 1
  sliceSizes := ![1, 64]
  wf := gather_S10000x64_S170000x1_S170000x64_1_0_n_n_0_1_164_wf
def scatter_S10000x64_S170000x1_S170000x64_1_0_0_1 : ScatterDims S10000x64 S170000x1 S170000x64 where
  updateWindowDims := [1]
  insertedWindowDims := [0]
  scatterDimsToOperandDims := [0]
  indexVectorDim := 1
  wf := scatter_S10000x64_S170000x1_S170000x64_1_0_0_1_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.KHost.lean ====
/-
  The host part of @main: the nine stretches of host operations that run before the one kernel region.

  `V m c b` is what TensorCore buffer `b` of core `c` holds when the region is entered: the launch
  contents `m` rewritten by the host operations in order.  `hmain` says @main is exactly those stretches
  followed by the region.  No host operation writes an argument array, so each argument is still at its
  launch contents when the region is entered (`V_main_argK`).
-/
import proofs.«150135_j76733885710552_2_alg».proof.Proof.Gen.Kernel.Launch
import Idealize.ShloMosaic.Lib.Pipeline.Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ) (ρ : Dev nD → PrngReg)

/-- Core `c`'s TensorCore buffers when the region is entered: the launch contents after the nine stretches of
    host operations, in order. -/
abbrev V (c : Dev nD) (b : Ref sig .tc) : Buf (Elt F) ((c : Thread nD τ).loc b) :=
  StableHlo.after (List.flatten [Gen.hostOps0, Gen.hostOps0_1, Gen.hostOps0_2, Gen.hostOps0_3, Gen.hostOps0_4, Gen.hostOps0_5, Gen.hostOps0_6, Gen.hostOps0_7, Gen.hostOps0_8]) (fun b => m (c, b)) b

/-- No operation of this stretch allocates a buffer of unknown contents. -/
theorem hostOps0_fresh : (Gen.hostOps0 : List (HloOp τ sig (Elt F))).Forall fun op => op.fresh = ∅ := by
  simp only [List.Forall]; repeat' constructor
/-- No operation of this stretch allocates a buffer of unknown contents. -/
theorem hostOps0_1_fresh : (Gen.hostOps0_1 : List (HloOp τ sig (Elt F))).Forall fun op => op.fresh = ∅ := by
  simp only [List.Forall]; repeat' constructor
/-- No operation of this stretch allocates a buffer of unknown contents. -/
theorem hostOps0_2_fresh : (Gen.hostOps0_2 : List (HloOp τ sig (Elt F))).Forall fun op => op.fresh = ∅ := by
  simp only [List.Forall]; repeat' constructor
/-- No operation of this stretch allocates a buffer of unknown contents. -/
theorem hostOps0_3_fresh : (Gen.hostOps0_3 : List (HloOp τ sig (Elt F))).Forall fun op => op.fresh = ∅ := by
  simp only [List.Forall]; repeat' constructor
/-- No operation of this stretch allocates a buffer of unknown contents. -/
theorem hostOps0_4_fresh : (Gen.hostOps0_4 : List (HloOp τ sig (Elt F))).Forall fun op => op.fresh = ∅ := by
  simp only [List.Forall]; repeat' constructor
/-- No operation of this stretch allocates a buffer of unknown contents. -/
theorem hostOps0_5_fresh : (Gen.hostOps0_5 : List (HloOp τ sig (Elt F))).Forall fun op => op.fresh = ∅ := by
  simp only [List.Forall]; repeat' constructor
/-- No operation of this stretch allocates a buffer of unknown contents. -/
theorem hostOps0_6_fresh : (Gen.hostOps0_6 : List (HloOp τ sig (Elt F))).Forall fun op => op.fresh = ∅ := by
  simp only [List.Forall]; repeat' constructor
/-- No operation of this stretch allocates a buffer of unknown contents. -/
theorem hostOps0_7_fresh : (Gen.hostOps0_7 : List (HloOp τ sig (Elt F))).Forall fun op => op.fresh = ∅ := by
  simp only [List.Forall]; repeat' constructor
/-- No operation of this stretch allocates a buffer of unknown contents. -/
theorem hostOps0_8_fresh : (Gen.hostOps0_8 : List (HloOp τ sig (Elt F))).Forall fun op => op.fresh = ∅ := by
  simp only [List.Forall]; repeat' constructor

/-- @main is the nine stretches of host operations followed by the region: so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [Gen.hostOps0, Gen.hostOps0_1, Gen.hostOps0_2, Gen.hostOps0_3, Gen.hostOps0_4, Gen.hostOps0_5, Gen.hostOps0_6, Gen.hostOps0_7, Gen.hostOps0_8]
    (by simp only [List.Forall]; exact ⟨Gen.hostOps0_sub, Gen.hostOps0_1_sub, Gen.hostOps0_2_sub, Gen.hostOps0_3_sub, Gen.hostOps0_4_sub, Gen.hostOps0_5_sub, Gen.hostOps0_6_sub, Gen.hostOps0_7_sub, Gen.hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) Gen.main_chain

/-- No host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.Kernel.Hand

end
-- ==== Proof.KBody.lean ====
/-
  The kernel body on whole staging buffers.

  The body loads both input buffers whole, multiplies the first by the transpose of the second into a zero
  accumulator, applies the logistic function, reads the output buffer once (the value is not used) and stores the
  result over the whole output buffer.  So from input buffers reading `x0` and `x1` and an output buffer at any
  contents, it ends with the inputs as they were and the output buffer reading `Gen.k0_pay1 x0 x1`.
-/
import proofs.«150135_j76733885710552_2_alg».proof.Proof.Gen.Kernel.Skeleton
import proofs.«150135_j76733885710552_2_alg».proof.Proof.Gen.Kernel.Launch
import Idealize.ShloMosaic.Lib.Pipeline.FrameBody
import Idealize.ShloMosaic.Lib.Pipeline.Value
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The offsets of every access of the body: zero on both axes. -/
theorem zeros2 : (![0, 0] : Fin 2 → Nat) = fun _ => 0 := funext fun a => by fin_cases a <;> rfl

/-- The rectangle of the input loads: the whole input buffer. -/
abbrev rIn : Rect S2048x64 := Rect.unit (s := S2048x64) ![0, 0] S2048x64.size Gen.inb_S2048x64_S2048x64_0_0
/-- The rectangle of the output's load and store: the whole output buffer. -/
abbrev rOut : Rect S2048x2048 := Rect.unit (s := S2048x2048) ![0, 0] S2048x2048.size Gen.inb_S2048x2048_S2048x2048_0_0

/-- What the one store leaves in the output buffer, as the pieces written: the payload of the loads through the whole
    input buffers, laid over the whole output buffer. -/
def outPieces (x0 x1 : Vec F S2048x64 .bf16) : Vec F S2048x2048 .f32 :=
  View.canon [⟨rOut, Gen.k0_pay1 (View.ld x0 rIn) (View.ld x1 rIn)⟩]

/-- A whole-buffer load reads the contents and a whole-buffer store leaves its payload: the output buffer ends at the
    payload of the input buffers' contents. -/
theorem outPieces_eq (x0 x1 : Vec F S2048x64 .bf16) : outPieces x0 x1 = Gen.k0_pay1 x0 x1 := by
  unfold outPieces
  rw [View.canon_unit_zero zeros2, View.ld_unit_zero zeros2, View.ld_unit_zero zeros2]

set_option maxHeartbeats 1000000 in
/-- The body's triple: from the input buffers reading `x0`, `x1` and the output buffer at anything, to the
    continuation holding the inputs as they were and the output reading `Gen.k0_pay1 x0 x1`. -/
theorem sound_kernel (c : Dev nD) (E : Set ℕ) (i : grid0.Coords)
    (arg2 : Memref sig .tc .vmem S2048x64 .bf16) (harg2 : arg2.IsWhole)
    (arg3 : Memref sig .tc .vmem S2048x64 .bf16) (harg3 : arg3.IsWhole)
    (arg4 : Memref sig .tc .vmem S2048x2048 .f32) (harg4 : arg4.IsWhole)
    (x0 : Vec F S2048x64 .bf16) (x1 : Vec F S2048x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (Gen.k0_pay1 x0 x1)) -∗ K ⟨⟩))
      ⊢ wp frame (wpE (defs₀ (F := F)) Variants.none c none) E (cc0__decode_kernel i arg2 harg2 arg3 harg3 arg4 harg4) K := by
  rw [← outPieces_eq]
  simp only [Gen.cc0__decode_kernel_eq_skeleton]; unfold Gen.cc0__decode_kernel_skel
  unfold owns
  iintro ⟨⟨%f0, %hf0, H0⟩, ⟨%f1, %hf1, H1⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H3
  ipureintro
  exact View.read_writes_eq_canon _ _ _ (fun y => ⟨_, List.mem_singleton_self _, View.mem_set_unit_zero zeros2 Gen.inb_S2048x2048_S2048x2048_0_0 y⟩)

end Cert.Kernel.Hand

end
-- ==== Proof.KData.lean ====
/-
  The proof data of the one kernel region and the body obligation.

  The region is a pipelined kernel on a 5 × 5 grid with three windows.  Windows 0 and 1 are input windows that both
  stage blocks of the SAME array (rows `i` and rows `j` of it); window 2 is the output window, whose edge blocks
  overhang the output array and are clipped at its end.

  * A window's block at a point is read off its array as the region finds it (`iblk`).
  * After the body at a point, each input buffer still holds its block and the output buffer holds the payload of
    the two input blocks (`dats`).
  * The shared input array's share is named per window: the left half of the full share for window 0, the right
    half for window 1 (the field `q`).
  * At every point the body, found with the input buffers at their blocks and the output buffer at anything, leaves
    the inputs in place and the output buffer at the payload on its whole extent (`body_obligation`).
-/
import proofs.«150135_j76733885710552_2_alg».proof.Proof.KHost
import proofs.«150135_j76733885710552_2_alg».proof.Proof.KBody
import proofs.«150135_j76733885710552_2_alg».proof.Proof.Gen.Kernel.Points

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The pipeline's proof data -/

/-- The proof data on core `c`: the arrays as the region finds them; after the body at point `t` each input buffer
    at its block and the output buffer at the payload of the two input blocks; between points nothing but the scoped
    buffers that are no staging buffer; nothing owed; the shared input array's share dealt out in two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Gen.k0_pay1 (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = Gen.k0_pay1 (iblk m c 0 t) (iblk m c 1 t) := by dsimp only [dats]

/-- An input buffer holds its window's block at every point, fetched there or not: where it is not fetched the block
    index has not moved since the last fetch and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (Gen.st0_0 t) fullShare ((dats m 0 c).after 0 t)
    ∗ owns (c : Thread nD τ) (Gen.st0_1 t) fullShare ((dats m 0 c).after 1 t)
    ∗ owns (c : Thread nD τ) (Gen.st0_2 t) fullShare ((dats m 0 c).after 2 t))

/-- The body at any point: the input buffers hold their blocks and the output buffer holds anything, so the body's
    triple applies; the invariant and what the core owes pass through unread. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point: the output buffer ends at the payload exactly, on its whole extent. -/
theorem body_obligation (c : Dev nD) : BodyObligation (dats (F := F) m 0 c) (defs₀ (F := F)) Variants.none () Set.univ := fun t => by
  rw [Gen.bigSep_W0, Gen.bigSep_W0]
  exact sound_body m c t

end Cert.Kernel.Hand

end
-- ==== Proof.LibSharedFrame.lean ====
/-
  The frame run of a pipelined kernel whose input windows may read ONE array through several windows.

  When two windows stage blocks of the same array, the array's buffer cannot be held once per window at the
  full share.  What is true instead: the buffer, held whole at the full share when the region is entered, can be
  dealt out among the windows that read it, each at a positive share of its own, because reading needs only a
  share.  This file states the launch for that situation once, for any kernel that
    * runs one region on a static grid and has no semaphore or transfer of its own,
    * keeps nothing between grid points outside the staging buffers, and
    * does not use the generator register,
  so that the region invariant is just "the scoped buffers that are no staging buffer, at some contents".

  The conclusion is the same post as for distinct arrays: after the run every window's array holds what the
  pipeline computes from the proof data (an input its entry contents, an output those overwritten block by block
  at each write-back), and every other unscoped buffer what it held when the region was entered.

  The certificate supplies, besides the usual proof data and body obligation, how the distinct buffers behind the
  windows' arrays (each whole, full share, entry contents) make up the per-window holdings at their shares
  (`hsplit`).
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run when windows may share arrays.  `hinj`: the program's staging cells are pairwise distinct;
    `hw`: the windows' layout facts, the arrays' distinctness apart; `hsplit`: the buffers behind the arrays, whole
    at the region-entry contents `V`, yield every window's holding at its share; `hΦ`: the invariant between
    points is the scoped rest and nothing else. -/
theorem θ_run_frame_shared
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    V hmain hsplit
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr
      · iempintro
      · iexact HU)
    (hin := fun c => by
      rw [hΦ]
      iintro ⟨-, HR⟩
      iexact HR)
    (hout := fun c => by
      rw [hΦ]
      iintro HR
      isplitr
      · iempintro
      · iexact HR)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end SharedFrame

end Pipeline

end Idealize.ShloMosaic

end
-- ==== Proof.KFrame.lean ====
/-
  The frame of the kernel program: @main runs, and its ten argument arrays end as launched.

  The one region is a pipelined kernel on a 5 × 5 grid with three windows.  Windows 0 and 1 are input windows that
  both stage blocks of the SAME array (rows `i` and rows `j` of it); window 2 is the output window, whose edge
  blocks overhang the output array and are clipped at its end.

  * A window's block at a point is read off its array as the region finds it (`iblk`).
  * After the body at a point, each input buffer still holds its block and the output buffer holds the payload of
    the two input blocks (`dats`).
  * The shared input array is held once, whole, at the full share when the region is entered; reading needs only
    a share, so it is dealt out in two halves, the left half to window 0 and the right half to window 1, and the
    output array goes whole to window 2 (`hsplit`).
  * None of the ten arguments is a window's array, and no host operation writes one: each ends as launched.
-/
import proofs.«150135_j76733885710552_2_alg».proof.Proof.KData
import proofs.«150135_j76733885710552_2_alg».proof.Proof.LibSharedFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## How the shared array's share is dealt out -/

/-- One buffer held whole at the full share is two holdings of it at the two halves of the full share; a second
    buffer passes through. -/
theorem deal_shared {ℓ₀ ℓ₁ : Loc nD τ sig} (f₀ : Buf (Elt F) ℓ₀) (f₁ : Buf (Elt F) ℓ₁) :
    iprop((ℓ₀ ↦{fullShare} f₀) ∗ (ℓ₁ ↦{fullShare} f₁))
      ⊢ (iprop((ℓ₀ ↦{fullShare.left} f₀) ∗ (ℓ₀ ↦{fullShare.right} f₀) ∗ (ℓ₁ ↦{fullShare} f₁)) : sProp 𝕄) := by
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

/-- The share each window holds its array at: the two halves of the full share for the two input windows, the full
    share for the output window. -/
theorem share0 (c : Dev nD) : (dats m 0 c).share 0 = fullShare.left := by
  unfold Dat.share; rfl
theorem share1 (c : Dev nD) : (dats m 0 c).share 1 = fullShare.right := by
  unfold Dat.share; rfl
theorem share2 (c : Dev nD) : (dats m 0 c).share 2 = fullShare := by
  unfold Dat.share; rfl

/-- Before any write-back an array holds what the region found in it. -/
theorem arrAt_zero (c : Dev nD) (w : Fin cfg0.W) : (dats m 0 c).arrAt w 0 = V m c (Pipeline.arrRef spec0 w) := by
  unfold Dat.arrAt; exact A_eq m c w

/-- The buffers behind the windows' arrays, whole at the full share at the region-entry contents, make up the three
    windows' holdings: the shared input array at the left half for window 0 and at the right half for window 1, the
    output array whole for window 2. -/
theorem hsplit (c : Dev nD) :
    (Pipeline.arrBufs spec0 c (V m c) : sProp 𝕄) ⊢ (dats m 0 c).arrays ((dats m 0 c).arrAt · 0) := by
  unfold Pipeline.arrBufs Dat.arrays
  rw [Gen.bigSep_W0, bigSep_eq_bigSepL_of_eq [main_v80, main_v81] (by decide) (by decide), bigSepL_cons_cons, bigSepL_singleton]
  rw [(Gen.arr_whole0 0).set_eq_univ, (Gen.arr_whole0 2).set_eq_univ]
  rw [share0, share1, share2]
  simp only [arrAt_zero]
  exact deal_shared (V m c main_v80) (V m c main_v81)

/-! ## The run and the frame -/

set_option backward.isDefEq.respectTransparency.types false in
/-- Every weakly fair execution of @main on the TensorCores terminates, and every final state has every window's array
    at what the pipeline computes from the proof data and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) defs₀ Variants.none Gen.cellOf_inj Gen.winFacts₀0 Gen.block_pos0
    Gen.arr_whole0 Gen.stage_whole0 m ρ main
    (hbody := fun c => (body_obligation m c).loose) (howed := fun _ _ => rfl) (V := V m) (hmain := hmain m Variants.none)
    (hsplit := hsplit m) (hΦ := fun _ _ => rfl)

/-- The frame: @main runs and each of its ten argument arrays ends as launched. None is a window's array, so each is
    among the unscoped buffers the region leaves as it found them, and no host operation wrote it before. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end Cert.Kernel.Hand

end
-- ==== Proof.KIHost.lean ====
/-
  The host part of @main: the nine stretches of host operations that run before the one kernel region.

  `V m c b` is what TensorCore buffer `b` of core `c` holds when the region is entered: the launch
  contents `m` rewritten by the host operations in order.  `hmain` says @main is exactly those stretches
  followed by the region.  No host operation writes an argument array, so each argument is still at its
  launch contents when the region is entered (`V_main_argK`).
-/
import proofs.«150135_j76733885710552_2_alg».proof.Proof.Gen.KernelIdeal.Launch
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ) (ρ : Dev nD → PrngReg)

/-- Core `c`'s TensorCore buffers when the region is entered: the launch contents after the nine stretches of
    host operations, in order. -/
abbrev V (c : Dev nD) (b : Ref sig .tc) : Buf (Elt F) ((c : Thread nD τ).loc b) :=
  StableHlo.after (List.flatten [Gen.hostOps0, Gen.hostOps0_1, Gen.hostOps0_2, Gen.hostOps0_3, Gen.hostOps0_4, Gen.hostOps0_5, Gen.hostOps0_6, Gen.hostOps0_7, Gen.hostOps0_8]) (fun b => m (c, b)) b

/-- No operation of this stretch allocates a buffer of unknown contents. -/
theorem hostOps0_fresh : (Gen.hostOps0 : List (HloOp τ sig (Elt F))).Forall fun op => op.fresh = ∅ := by
  simp only [List.Forall]; repeat' constructor
/-- No operation of this stretch allocates a buffer of unknown contents. -/
theorem hostOps0_1_fresh : (Gen.hostOps0_1 : List (HloOp τ sig (Elt F))).Forall fun op => op.fresh = ∅ := by
  simp only [List.Forall]; repeat' constructor
/-- No operation of this stretch allocates a buffer of unknown contents. -/
theorem hostOps0_2_fresh : (Gen.hostOps0_2 : List (HloOp τ sig (Elt F))).Forall fun op => op.fresh = ∅ := by
  simp only [List.Forall]; repeat' constructor
/-- No operation of this stretch allocates a buffer of unknown contents. -/
theorem hostOps0_3_fresh : (Gen.hostOps0_3 : List (HloOp τ sig (Elt F))).Forall fun op => op.fresh = ∅ := by
  simp only [List.Forall]; repeat' constructor
/-- No operation of this stretch allocates a buffer of unknown contents. -/
theorem hostOps0_4_fresh : (Gen.hostOps0_4 : List (HloOp τ sig (Elt F))).Forall fun op => op.fresh = ∅ := by
  simp only [List.Forall]; repeat' constructor
/-- No operation of this stretch allocates a buffer of unknown contents. -/
theorem hostOps0_5_fresh : (Gen.hostOps0_5 : List (HloOp τ sig (Elt F))).Forall fun op => op.fresh = ∅ := by
  simp only [List.Forall]; repeat' constructor
/-- No operation of this stretch allocates a buffer of unknown contents. -/
theorem hostOps0_6_fresh : (Gen.hostOps0_6 : List (HloOp τ sig (Elt F))).Forall fun op => op.fresh = ∅ := by
  simp only [List.Forall]; repeat' constructor
/-- No operation of this stretch allocates a buffer of unknown contents. -/
theorem hostOps0_7_fresh : (Gen.hostOps0_7 : List (HloOp τ sig (Elt F))).Forall fun op => op.fresh = ∅ := by
  simp only [List.Forall]; repeat' constructor
/-- No operation of this stretch allocates a buffer of unknown contents. -/
theorem hostOps0_8_fresh : (Gen.hostOps0_8 : List (HloOp τ sig (Elt F))).Forall fun op => op.fresh = ∅ := by
  simp only [List.Forall]; repeat' constructor

/-- @main is the nine stretches of host operations followed by the region: so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [Gen.hostOps0, Gen.hostOps0_1, Gen.hostOps0_2, Gen.hostOps0_3, Gen.hostOps0_4, Gen.hostOps0_5, Gen.hostOps0_6, Gen.hostOps0_7, Gen.hostOps0_8]
    (by simp only [List.Forall]; exact ⟨Gen.hostOps0_sub, Gen.hostOps0_1_sub, Gen.hostOps0_2_sub, Gen.hostOps0_3_sub, Gen.hostOps0_4_sub, Gen.hostOps0_5_sub, Gen.hostOps0_6_sub, Gen.hostOps0_7_sub, Gen.hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) Gen.main_chain

/-- No host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Hand

end
-- ==== Proof.KIBody.lean ====
/-
  The kernel body on whole staging buffers.

  The body loads both input buffers whole, multiplies the first by the transpose of the second into a zero
  accumulator, applies the logistic function, reads the output buffer once (the value is not used) and stores the
  result over the whole output buffer.  So from input buffers reading `x0` and `x1` and an output buffer at any
  contents, it ends with the inputs as they were and the output buffer reading `Gen.k0_pay1 x0 x1`.
-/
import proofs.«150135_j76733885710552_2_alg».proof.Proof.Gen.KernelIdeal.Skeleton
import proofs.«150135_j76733885710552_2_alg».proof.Proof.Gen.KernelIdeal.Launch
import Idealize.ShloMosaic.Lib.Pipeline.FrameBody
import Idealize.ShloMosaic.Lib.Pipeline.Value
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The offsets of every access of the body: zero on both axes. -/
theorem zeros2 : (![0, 0] : Fin 2 → Nat) = fun _ => 0 := funext fun a => by fin_cases a <;> rfl

/-- The rectangle of the input loads: the whole input buffer. -/
abbrev rIn : Rect S2048x64 := Rect.unit (s := S2048x64) ![0, 0] S2048x64.size Gen.inb_S2048x64_S2048x64_0_0
/-- The rectangle of the output's load and store: the whole output buffer. -/
abbrev rOut : Rect S2048x2048 := Rect.unit (s := S2048x2048) ![0, 0] S2048x2048.size Gen.inb_S2048x2048_S2048x2048_0_0

/-- What the one store leaves in the output buffer, as the pieces written: the payload of the loads through the whole
    input buffers, laid over the whole output buffer. -/
def outPieces (x0 x1 : Vec F S2048x64 .bf16) : Vec F S2048x2048 .f32 :=
  View.canon [⟨rOut, Gen.k0_pay1 (View.ld x0 rIn) (View.ld x1 rIn)⟩]

/-- A whole-buffer load reads the contents and a whole-buffer store leaves its payload: the output buffer ends at the
    payload of the input buffers' contents. -/
theorem outPieces_eq (x0 x1 : Vec F S2048x64 .bf16) : outPieces x0 x1 = Gen.k0_pay1 x0 x1 := by
  unfold outPieces
  rw [View.canon_unit_zero zeros2, View.ld_unit_zero zeros2, View.ld_unit_zero zeros2]

set_option maxHeartbeats 1000000 in
/-- The body's triple: from the input buffers reading `x0`, `x1` and the output buffer at anything, to the
    continuation holding the inputs as they were and the output reading `Gen.k0_pay1 x0 x1`. -/
theorem sound_kernel (c : Dev nD) (E : Set ℕ) (i : grid0.Coords)
    (arg2 : Memref sig .tc .vmem S2048x64 .bf16) (harg2 : arg2.IsWhole)
    (arg3 : Memref sig .tc .vmem S2048x64 .bf16) (harg3 : arg3.IsWhole)
    (arg4 : Memref sig .tc .vmem S2048x2048 .f32) (harg4 : arg4.IsWhole)
    (x0 : Vec F S2048x64 .bf16) (x1 : Vec F S2048x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (Gen.k0_pay1 x0 x1)) -∗ K ⟨⟩))
      ⊢ wp frame (wpE (defs₀ (F := F)) Variants.none c none) E (cc0__decode_kernel i arg2 harg2 arg3 harg3 arg4 harg4) K := by
  rw [← outPieces_eq]
  simp only [Gen.cc0__decode_kernel_eq_skeleton]; unfold Gen.cc0__decode_kernel_skel
  unfold owns
  iintro ⟨⟨%f0, %hf0, H0⟩, ⟨%f1, %hf1, H1⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H3
  ipureintro
  exact View.read_writes_eq_canon _ _ _ (fun y => ⟨_, List.mem_singleton_self _, View.mem_set_unit_zero zeros2 Gen.inb_S2048x2048_S2048x2048_0_0 y⟩)

end Cert.KernelIdeal.Hand

end
-- ==== Proof.KIData.lean ====
/-
  The proof data of the one kernel region and the body obligation.

  The region is a pipelined kernel on a 5 × 5 grid with three windows.  Windows 0 and 1 are input windows that both
  stage blocks of the SAME array (rows `i` and rows `j` of it); window 2 is the output window, whose edge blocks
  overhang the output array and are clipped at its end.

  * A window's block at a point is read off its array as the region finds it (`iblk`).
  * After the body at a point, each input buffer still holds its block and the output buffer holds the payload of
    the two input blocks (`dats`).
  * The shared input array's share is named per window: the left half of the full share for window 0, the right
    half for window 1 (the field `q`).
  * At every point the body, found with the input buffers at their blocks and the output buffer at anything, leaves
    the inputs in place and the output buffer at the payload on its whole extent (`body_obligation`).
-/
import proofs.«150135_j76733885710552_2_alg».proof.Proof.KIHost
import proofs.«150135_j76733885710552_2_alg».proof.Proof.KIBody
import proofs.«150135_j76733885710552_2_alg».proof.Proof.Gen.KernelIdeal.Points

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The pipeline's proof data -/

/-- The proof data on core `c`: the arrays as the region finds them; after the body at point `t` each input buffer
    at its block and the output buffer at the payload of the two input blocks; between points nothing but the scoped
    buffers that are no staging buffer; nothing owed; the shared input array's share dealt out in two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Gen.k0_pay1 (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = Gen.k0_pay1 (iblk m c 0 t) (iblk m c 1 t) := by dsimp only [dats]

/-- An input buffer holds its window's block at every point, fetched there or not: where it is not fetched the block
    index has not moved since the last fetch and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (Gen.st0_0 t) fullShare ((dats m 0 c).after 0 t)
    ∗ owns (c : Thread nD τ) (Gen.st0_1 t) fullShare ((dats m 0 c).after 1 t)
    ∗ owns (c : Thread nD τ) (Gen.st0_2 t) fullShare ((dats m 0 c).after 2 t))

/-- The body at any point: the input buffers hold their blocks and the output buffer holds anything, so the body's
    triple applies; the invariant and what the core owes pass through unread. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point: the output buffer ends at the payload exactly, on its whole extent. -/
theorem body_obligation (c : Dev nD) : BodyObligation (dats (F := F) m 0 c) (defs₀ (F := F)) Variants.none () Set.univ := fun t => by
  rw [Gen.bigSep_W0, Gen.bigSep_W0]
  exact sound_body m c t

end Cert.KernelIdeal.Hand

end
-- ==== Proof.KIFrame.lean ====
/-
  The frame of the kernel program: @main runs, and its ten argument arrays end as launched.

  The one region is a pipelined kernel on a 5 × 5 grid with three windows.  Windows 0 and 1 are input windows that
  both stage blocks of the SAME array (rows `i` and rows `j` of it); window 2 is the output window, whose edge
  blocks overhang the output array and are clipped at its end.

  * A window's block at a point is read off its array as the region finds it (`iblk`).
  * After the body at a point, each input buffer still holds its block and the output buffer holds the payload of
    the two input blocks (`dats`).
  * The shared input array is held once, whole, at the full share when the region is entered; reading needs only
    a share, so it is dealt out in two halves, the left half to window 0 and the right half to window 1, and the
    output array goes whole to window 2 (`hsplit`).
  * None of the ten arguments is a window's array, and no host operation writes one: each ends as launched.
-/
import proofs.«150135_j76733885710552_2_alg».proof.Proof.KIData
import proofs.«150135_j76733885710552_2_alg».proof.Proof.LibSharedFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## How the shared array's share is dealt out -/

/-- One buffer held whole at the full share is two holdings of it at the two halves of the full share; a second
    buffer passes through. -/
theorem deal_shared {ℓ₀ ℓ₁ : Loc nD τ sig} (f₀ : Buf (Elt F) ℓ₀) (f₁ : Buf (Elt F) ℓ₁) :
    iprop((ℓ₀ ↦{fullShare} f₀) ∗ (ℓ₁ ↦{fullShare} f₁))
      ⊢ (iprop((ℓ₀ ↦{fullShare.left} f₀) ∗ (ℓ₀ ↦{fullShare.right} f₀) ∗ (ℓ₁ ↦{fullShare} f₁)) : sProp 𝕄) := by
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

/-- The share each window holds its array at: the two halves of the full share for the two input windows, the full
    share for the output window. -/
theorem share0 (c : Dev nD) : (dats m 0 c).share 0 = fullShare.left := by
  unfold Dat.share; rfl
theorem share1 (c : Dev nD) : (dats m 0 c).share 1 = fullShare.right := by
  unfold Dat.share; rfl
theorem share2 (c : Dev nD) : (dats m 0 c).share 2 = fullShare := by
  unfold Dat.share; rfl

/-- Before any write-back an array holds what the region found in it. -/
theorem arrAt_zero (c : Dev nD) (w : Fin cfg0.W) : (dats m 0 c).arrAt w 0 = V m c (Pipeline.arrRef spec0 w) := by
  unfold Dat.arrAt; exact A_eq m c w

/-- The buffers behind the windows' arrays, whole at the full share at the region-entry contents, make up the three
    windows' holdings: the shared input array at the left half for window 0 and at the right half for window 1, the
    output array whole for window 2. -/
theorem hsplit (c : Dev nD) :
    (Pipeline.arrBufs spec0 c (V m c) : sProp 𝕄) ⊢ (dats m 0 c).arrays ((dats m 0 c).arrAt · 0) := by
  unfold Pipeline.arrBufs Dat.arrays
  rw [Gen.bigSep_W0, bigSep_eq_bigSepL_of_eq [main_v80, main_v81] (by decide) (by decide), bigSepL_cons_cons, bigSepL_singleton]
  rw [(Gen.arr_whole0 0).set_eq_univ, (Gen.arr_whole0 2).set_eq_univ]
  rw [share0, share1, share2]
  simp only [arrAt_zero]
  exact deal_shared (V m c main_v80) (V m c main_v81)

/-! ## The run and the frame -/

set_option backward.isDefEq.respectTransparency.types false in
/-- Every weakly fair execution of @main on the TensorCores terminates, and every final state has every window's array
    at what the pipeline computes from the proof data and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) defs₀ Variants.none Gen.cellOf_inj Gen.winFacts₀0 Gen.block_pos0
    Gen.arr_whole0 Gen.stage_whole0 m ρ main
    (hbody := fun c => (body_obligation m c).loose) (howed := fun _ _ => rfl) (V := V m) (hmain := hmain m Variants.none)
    (hsplit := hsplit m) (hΦ := fun _ _ => rfl)

/-- The frame: @main runs and each of its ten argument arrays ends as launched. None is a window's array, so each is
    among the unscoped buffers the region leaves as it found them, and no host operation wrote it before. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end Cert.KernelIdeal.Hand

end
-- ==== Proof.DecodeBlock.lean ====
/-
  One block of the decode. The kernel body multiplies its first operand block by the transpose of its
  second and applies the logistic function: entry (p, q) of what it stores is the logistic of the inner
  product of row p of the first block with row q of the second, a sum over the 64 latent coordinates.
-/
import proofs.«150135_j76733885710552_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.Bridge

open Idealize.ShloMosaic Idealize.ShloMosaic.ValueIdx
open Cert.KernelIdeal Cert.KernelIdeal.Gen

local notation "dotBlk" => dot_S2048x64_S2048x64_S2048x2048_1_1_0_0_n_n

/-- At output entry (p, q) and contraction position k the first operand is read at (p, k): -/
theorem blk_lhs_0 (j : S2048x2048.Idx) (q : (dotBlk).contr.Idx) : ((dotBlk).lhsIdx j q 0).val = (j 0).val := by
  unfold DotDims.lhsIdx
  rw [dif_neg (show ¬(0 : Fin S2048x64.rank) ∈ (dotBlk).lhsBatch by decide),
    dif_pos (show (0 : Fin S2048x64.rank) ∈ (dotBlk).lhsNonContracting by decide)]
  rfl
theorem blk_lhs_1 (j : S2048x2048.Idx) (q : (dotBlk).contr.Idx) :
    ((dotBlk).lhsIdx j q 1).val = (q ⟨0, by decide⟩).val :=
  (dotBlk).lhsIdx_val_of_single rfl j q
/-- and the second at (q, k): both operands are contracted along their lane axis. -/
theorem blk_rhs_0 (j : S2048x2048.Idx) (q : (dotBlk).contr.Idx) : ((dotBlk).rhsIdx j q 0).val = (j 1).val := by
  unfold DotDims.rhsIdx
  rw [dif_neg (show ¬(0 : Fin S2048x64.rank) ∈ (dotBlk).rhsBatch by decide),
    dif_pos (show (0 : Fin S2048x64.rank) ∈ (dotBlk).rhsNonContracting by decide)]
  rfl
theorem blk_rhs_1 (j : S2048x2048.Idx) (q : (dotBlk).contr.Idx) :
    ((dotBlk).rhsIdx j q 1).val = (q ⟨0, by decide⟩).val :=
  (dotBlk).rhsIdx_val_of_single rfl j q

/-- The body's stored block at entry (p, q): the logistic of Σ_k x0[p, k] · x1[q, k]. -/
theorem pay_apply (x0 x1 : Vec Ideal S2048x64 .bf16) (p q : Fin 2048) :
    k0_pay1 (F := Ideal) x0 x1 (ix2 p q) = Ideal.logistic (∑ k : Fin 64, x0 (ix2 p k) * x1 (ix2 q k)) := by
  unfold k0_pay1
  show Ideal.logistic (matmul (F := Ideal) (dotBlk) none (shapeCast S2048x64 x0 shapeCasts_S2048x64_S2048x64)
    (shapeCast S2048x64 x1 shapeCasts_S2048x64_S2048x64) (constant (F := Ideal) S2048x2048 .f32 0x00000000#32) (ix2 p q)) = _
  congr 1
  rw [shapeCast_self, shapeCast_self]
  refine (Ideal.matmul_constant_zero_apply (φ₁ := .bf16) (φ₂ := .bf16) (dotBlk) none x0 x1 (ix2 p q)).trans ?_
  rw [← Equiv.sum_comp (contrEquiv1 (dotBlk) 64 rfl rfl).symm]
  refine Finset.sum_congr rfl fun k _ => ?_
  have hk := contrEquiv1_symm_val (dotBlk) 64 rfl rfl k
  have el : (dotBlk).lhsIdx (ix2 p q) ((contrEquiv1 (dotBlk) 64 rfl rfl).symm k) = ix2 p k := funext fun a => Fin.ext (by
    match a with
    | ⟨0, _⟩ => exact blk_lhs_0 _ _
    | ⟨1, _⟩ => exact (blk_lhs_1 _ _).trans hk)
  have er : (dotBlk).rhsIdx (ix2 p q) ((contrEquiv1 (dotBlk) 64 rfl rfl).symm k) = ix2 q k := funext fun a => Fin.ext (by
    match a with
    | ⟨0, _⟩ => exact blk_rhs_0 _ _
    | ⟨1, _⟩ => exact (blk_rhs_1 _ _).trans hk)
  rw [el, er]

end Cert.Bridge

end
-- ==== Proof.DecodeArray.lean ====
/-
  The decode as ONE function of the padded latent array. For a latent array Z of 10240 rows of 64 coordinates,
  `decode Z` is the 10000 × 10000 array whose entry (i, j) is the logistic of the inner product of rows i and j
  of Z. The kernel works on a 5 × 5 grid of blocks of 2048 × 2048 entries: at grid point (a, b) it is handed rows
  2048·a … of Z as its first operand block and rows 2048·b … as its second, and what it stores, cut to the part
  that lies inside the 10000 × 10000 array (the last block of either axis overhangs it by 240), is exactly the
  block of `decode Z` at (a, b). The 25 cut blocks cover the array.
-/
import proofs.«150135_j76733885710552_2_alg».proof.Proof.Gen.KernelIdeal.Points
import proofs.«150135_j76733885710552_2_alg».proof.Proof.DecodeBlock

set_option maxRecDepth 16384

noncomputable section

namespace Cert.Bridge

open Idealize.ShloMosaic Idealize.ShloMosaic.TcCoe Idealize.ShloMosaic.ValueIdx Idealize.SL.Sem
open Cert.KernelIdeal Cert.KernelIdeal.Gen

/-- Entry (i, j) of the decode of Z: the logistic of Σ_k Z[i, k] · Z[j, k]. -/
def decode (Z : S10240x64.Idx → EReal) : S10000x10000.Idx → EReal := fun i =>
  Ideal.logistic (∑ k : Fin 64,
    Z (ix2 (⟨(i 0).val, by have := idx2_lt0 i; omega⟩ : Fin 10240) k)
    * Z (ix2 (⟨(i 1).val, by have := idx2_lt1 i; omega⟩ : Fin 10240) k))

/-- The three index maps, decided over the 25 grid points: the first operand's block row and the result's block
    row are the point's first coordinate, the second operand's block row and the result's block column its
    second; neither operand block is offset along the 64 latent coordinates. With 5 points per grid row the
    coordinates of point t are t / 5 and t % 5. -/
theorem idx_facts : ∀ t : Fin cfg0.N,
    win0_0.index t 0 = t.val / 5 ∧ win0_0.index t 1 = 0 ∧ win0_1.index t 0 = t.val % 5 ∧ win0_1.index t 1 = 0
    ∧ win0_2.index t 0 = t.val / 5 ∧ win0_2.index t 1 = t.val % 5 :=
  (by decide +kernel : ∀ t : Fin grid0.N,
    win0_0.index t 0 = t.val / 5 ∧ win0_0.index t 1 = 0 ∧ win0_1.index t 0 = t.val % 5 ∧ win0_1.index t 1 = 0
    ∧ win0_2.index t 0 = t.val / 5 ∧ win0_2.index t 1 = t.val % 5)

/-- The extent of the result's block inside the array: 2048 except in the last block row or column, 1808. -/
theorem ext_facts : ∀ t : Fin cfg0.N,
    win0_2.xsize (grid0.coords t) 0 = (if t.val / 5 = 4 then 1808 else 2048)
    ∧ win0_2.xsize (grid0.coords t) 1 = (if t.val % 5 = 4 then 1808 else 2048) :=
  (by decide +kernel : ∀ t : Fin grid0.N,
    win0_2.xsize (grid0.coords t) 0 = (if t.val / 5 = 4 then 1808 else 2048)
    ∧ win0_2.xsize (grid0.coords t) 1 = (if t.val % 5 = 4 then 1808 else 2048))

/-- The first operand's block at point t is rows 2048·(t / 5) … of Z, all 64 coordinates. -/
theorem lhs_blk_apply (Z : S10240x64.Idx → EReal) (t : Fin cfg0.N) (p : Fin 2048) (k : Fin 64) (i : S10240x64.Idx)
    (h0 : (i 0).val = t.val / 5 * 2048 + p.val) (h1 : (i 1).val = k.val) :
    ((cfg0.win 0).blk t).view.read (Elt Ideal) Z (ix2 p k) = Z i := by
  obtain ⟨e0, e1, -, -, -, -⟩ := idx_facts t
  show Z (((cfg0.win 0).blk t).view.emb (ix2 p k)) = Z i
  refine congrArg Z (funext fun a => Fin.ext ?_)
  match a with
  | ⟨0, _⟩ =>
    show win0_0.index t 0 * 2048 + 1 * p.val = (i 0).val
    rw [e0, h0]; omega
  | ⟨1, _⟩ =>
    show win0_0.index t 1 * 64 + 1 * k.val = (i 1).val
    rw [e1, h1]; omega

/-- The second operand's block at point t is rows 2048·(t % 5) … of Z. -/
theorem rhs_blk_apply (Z : S10240x64.Idx → EReal) (t : Fin cfg0.N) (q : Fin 2048) (k : Fin 64) (i : S10240x64.Idx)
    (h0 : (i 0).val = t.val % 5 * 2048 + q.val) (h1 : (i 1).val = k.val) :
    ((cfg0.win 1).blk t).view.read (Elt Ideal) Z (ix2 q k) = Z i := by
  obtain ⟨-, -, e0, e1, -, -⟩ := idx_facts t
  show Z (((cfg0.win 1).blk t).view.emb (ix2 q k)) = Z i
  refine congrArg Z (funext fun a => Fin.ext ?_)
  match a with
  | ⟨0, _⟩ =>
    show win0_1.index t 0 * 2048 + 1 * q.val = (i 0).val
    rw [e0, h0]; omega
  | ⟨1, _⟩ =>
    show win0_1.index t 1 * 64 + 1 * k.val = (i 1).val
    rw [e1, h1]; omega

/-- What the body stores at point t, cut to the part inside the array, is block t of the decode of Z. -/
theorem stored_blk_eq (Z : S10240x64.Idx → EReal) (t : Fin cfg0.N) :
    win0_2.cut (grid0.coords t)
        (k0_pay1 (F := Ideal) (((cfg0.win 0).blk t).view.read (Elt Ideal) Z) (((cfg0.win 1).blk t).view.read (Elt Ideal) Z))
      = ((cfg0.win 2).blk t).view.read (Elt Ideal) (decode Z) := by
  obtain ⟨-, -, -, -, e0, e1⟩ := idx_facts t
  funext y
  show k0_pay1 (F := Ideal) _ _ (win0_2.xinj (grid0.coords t) y) = decode Z (((cfg0.win 2).blk t).view.emb y)
  have hy0 : (((cfg0.win 2).blk t).view.emb y 0 : Fin 10000).val = t.val / 5 * 2048 + (y 0).val := by
    show win0_2.index t 0 * 2048 + 1 * (y 0).val = _
    rw [e0]; omega
  have hy1 : (((cfg0.win 2).blk t).view.emb y 1 : Fin 10000).val = t.val % 5 * 2048 + (y 1).val := by
    show win0_2.index t 1 * 2048 + 1 * (y 1).val = _
    rw [e1]; omega
  refine (congrArg (k0_pay1 (F := Ideal) _ _) (eq_ix2 (win0_2.xinj (grid0.coords t) y))).trans ?_
  refine (pay_apply _ _ _ _).trans ?_
  unfold decode
  refine congrArg Ideal.logistic (Finset.sum_congr rfl fun k _ => ?_)
  exact congrArg₂ (· * ·) (lhs_blk_apply Z t _ k _ hy0 rfl) (rhs_blk_apply Z t _ k _ hy1 rfl)

/-- Which entries of the array block t covers: rows from 2048·(t / 5), columns from 2048·(t % 5), as many of each
    as lie inside the array. -/
theorem mem_blk (t : Fin cfg0.N) (i : S10000x10000.Idx) :
    i ∈ ((cfg0.win 2).blk t).view.set ↔
      (t.val / 5 * 2048 ≤ (i 0).val ∧ (i 0).val < t.val / 5 * 2048 + (if t.val / 5 = 4 then 1808 else 2048))
      ∧ (t.val % 5 * 2048 ≤ (i 1).val ∧ (i 1).val < t.val % 5 * 2048 + (if t.val % 5 = 4 then 1808 else 2048)) := by
  obtain ⟨-, -, -, -, e0, e1⟩ := idx_facts t
  obtain ⟨x0, x1⟩ := ext_facts t
  show i ∈ ((View.whole main_v81).slice (win0_2.rect t)).set ↔ _
  rw [View.set_slice_whole, Rect.mem_set_unit]
  constructor
  · intro h
    have h0 := h 0
    have h1 := h 1
    change win0_2.index t 0 * 2048 ≤ (i 0).val ∧ (i 0).val < win0_2.index t 0 * 2048 + win0_2.xsize (grid0.coords t) 0 at h0
    change win0_2.index t 1 * 2048 ≤ (i 1).val ∧ (i 1).val < win0_2.index t 1 * 2048 + win0_2.xsize (grid0.coords t) 1 at h1
    rw [e0, x0] at h0; rw [e1, x1] at h1
    exact ⟨h0, h1⟩
  · intro h a
    match a with
    | ⟨0, _⟩ =>
      change win0_2.index t 0 * 2048 ≤ (i 0).val ∧ (i 0).val < win0_2.index t 0 * 2048 + win0_2.xsize (grid0.coords t) 0
      rw [e0, x0]; exact h.1
    | ⟨1, _⟩ =>
      change win0_2.index t 1 * 2048 ≤ (i 1).val ∧ (i 1).val < win0_2.index t 1 * 2048 + win0_2.xsize (grid0.coords t) 1
      rw [e1, x1]; exact h.2

/-- Every entry (i, j) of the array lies in the block of the point (i / 2048, j / 2048), which is written back. -/
theorem blocks_cover (i : S10000x10000.Idx) :
    ∃ t : Fin cfg0.N, (cfg0.win 2).flush t = true ∧ i ∈ ((cfg0.win 2).blk t).view.set := by
  have h0 := idx2_lt0 i
  have h1 := idx2_lt1 i
  refine ⟨⟨(i 0).val / 2048 * 5 + (i 1).val / 2048, by rw [show cfg0.N = 25 from (by decide : grid0.N = 25)]; omega⟩, flush0_2 _, ?_⟩
  rw [mem_blk]
  dsimp only
  have d : ((i 0).val / 2048 * 5 + (i 1).val / 2048) / 5 = (i 0).val / 2048 := by omega
  have r : ((i 0).val / 2048 * 5 + (i 1).val / 2048) % 5 = (i 1).val / 2048 := by omega
  rw [d, r]
  refine ⟨⟨by omega, ?_⟩, ⟨by omega, ?_⟩⟩
  · split <;> omega
  · split <;> omega

end Cert.Bridge

end
-- ==== Proof.KIValue.lean ====
/-
  What the kernel program's result array holds after the run. The region's proof data say that at grid point t
  the body leaves, in the result's staging buffer, the decode block of the two operand blocks it was handed; both
  operand blocks are blocks of ONE array, the padded latent array the host operations computed, so what point t
  writes back is block t of the decode of that array, and since the 25 blocks cut at the array's end cover the
  10000 × 10000 result, the result ends holding the decode of the padded latent array, entry for entry.
-/
import proofs.«150135_j76733885710552_2_alg».proof.Proof.KIFrame
import proofs.«150135_j76733885710552_2_alg».proof.Proof.DecodeArray
import Idealize.ShloMosaic.Lib.Pipeline.Value

set_option maxRecDepth 16384

noncomputable section

namespace Cert.Bridge

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ) (ρ : Dev nD → PrngReg)

/-- What grid point t writes back: block t of the decode of the padded latent array. -/
theorem written_back (c : Dev nD) (t : Fin cfg0.N) :
    (dats m 0 c).flushed 2 t = ((cfg0.win 2).blk t).view.read (Elt Ideal) (decode (V m c main_v80)) := by
  show win0_2.cut (grid0.coords t) ((dats m 0 c).after 2 t) = _
  rw [after0_2]
  exact stored_blk_eq (V m c main_v80) t

/-- The result array after the last write-back: the decode of the padded latent array. -/
theorem result_final (c : Dev nD) : (dats m 0 c).arrAt 2 cfg0.N = decode (V m c main_v80) :=
  (dats m 0 c).arrAt_eq_of_cover 2 (decode (V m c main_v80)) (fun t _ => written_back m c t) blocks_cover

/-- Every weakly fair execution of the kernel program ends with its result at the decode of the padded latent
    array and its arguments unchanged. -/
theorem kernel_value :
    θ_run (defs (F := Ideal)) (onTc (τ := τ) (main (F := Ideal))) ⟨m, fun _ => 0, ρ⟩ (fun r => ∀ c : Dev nD,
      r.2.mem ((c.tc : Thread nD τ).loc main_v81) = decode (V m c main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 2).trans (result_final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end Cert.Bridge

end
-- ==== Proof.KIHostRead.lean ====
/-
  The kernel's host operations before the region, read back. Up to the hidden layer the kernel program and the
  reference run the same operations on the same arguments: the source and destination index vectors (the edge
  list with the self loops appended), the symmetric edge normalisation, and the first convolution followed by
  the rectifier. So what the kernel program's buffers hold there is, argument for argument, the reference's
  stage of the same name. (An operation of a called function is stated at the tensor type it carries and moved to
  its buffer's own type along an equation between the two types that holds by computation; those transports are
  identities and are erased before the two sides are compared.)
-/
import proofs.«150135_j76733885710552_2_alg».proof.Proof.KIHost
import proofs.«150135_j76733885710552_2_alg».proof.Proof.Gen.ReferenceIdeal.Read
import Idealize.ShloMosaic.Lib.StableHlo.Run

noncomputable section

namespace Cert.Bridge

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ)

/-- The argument arrays of core `c` at launch, by position. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)

set_option maxRecDepth 8192 in
set_option maxHeartbeats 4000000 in
/-- The source index of every edge (self loops appended). -/
theorem src_eq (c : Dev nD) :
    V m c main_v8 = Cert.ReferenceIdeal.Read.val_main_v8 (F := Ideal) (a1 m c) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxRecDepth 8192 in
set_option maxHeartbeats 4000000 in
/-- The destination index of every edge. -/
theorem dst_eq (c : Dev nD) :
    V m c main_v10 = Cert.ReferenceIdeal.Read.val_main_v10 (F := Ideal) (a1 m c) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxRecDepth 16384 in
set_option maxHeartbeats 20000000 in
/-- The edge normalisation d[src] · w · d[dst]. -/
theorem nrm_eq (c : Dev nD) :
    V m c main_v36 = Cert.ReferenceIdeal.Read.val_main_v36 (F := Ideal) (a1 m c) (a2 m c) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [TRef.toBuf, TRef.ofBuf, cast_eq]
  rfl

set_option maxRecDepth 16384 in
set_option maxHeartbeats 40000000 in
/-- The hidden layer: the first convolution, its bias, the rectifier. -/
theorem hid_eq (c : Dev nD) :
    V m c main_v54 = Cert.ReferenceIdeal.Read.val_main_v54 (F := Ideal) (a0 m c) (a1 m c) (a2 m c) (a4 m c) (a5 m c) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  simp only [TRef.toBuf, TRef.ofBuf, cast_eq]
  rfl

end Cert.Bridge

end
-- ==== Proof.LibConcat2.lean ====
/-
  Two arrays [R, n₁] and [R, n₂] laid side by side along the lanes, read at an index.

  The concatenation along axis 1 is an [R, n₁ + n₂] array. Its entry in row r at one of the first n₁ lanes is the first
  piece's entry in that row and lane; at lane n₁ + q it is the second piece's entry in row r, lane q. So a row of the
  concatenation is the first piece's row followed by the second piece's row.
-/
import Idealize.ShloMosaic.Lib.Pipeline.Value
import Idealize.ShloMosaic.Lib.ValueIdx

namespace Cert.LibConcat2

open Idealize.ShloMosaic Idealize.ShloMosaic.ValueIdx

variable {α : Type} {R n₁ n₂ w : Nat}

/-- Off the joined axis a piece's coordinates are the result's. -/
private theorem off_axis {n : Nat} (r : Fin R) (l : Fin w) (i : (⟨2, ![R, n]⟩ : Shape).Idx) (hi : (i 0).val = r.val) :
    ∀ bb : Fin (⟨2, ![R, n]⟩ : Shape).rank, bb.cast (rfl : (⟨2, ![R, n]⟩ : Shape).rank = (⟨2, ![R, w]⟩ : Shape).rank) ≠ (1 : Fin 2) →
      (i bb).val = ((ix2 r l : (⟨2, ![R, w]⟩ : Shape).Idx) (bb.cast rfl)).val := by
  intro bb hbb
  match bb with
  | ⟨0, _⟩ => exact hi
  | ⟨1, _⟩ => exact absurd rfl hbb

/-- A lane of the first piece. -/
theorem concatenate2_left (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2))
    (r : Fin R) (l : Fin w) (q : Fin n₁) (hl : l.val = q.val) :
    concatenate ⟨2, ![R, w]⟩ (1 : Fin 2) [⟨⟨2, ![R, n₁]⟩, a⟩, ⟨⟨2, ![R, n₂]⟩, b⟩] h (ix2 r l) = a (ix2 r q) :=
  concatenate_apply_piece (1 : Fin 2) _ h (ix2 r l) 0 (by simp) ⟨2, ![R, n₁]⟩ a rfl rfl 0 rfl
    (ix2 r q) (off_axis r l _ rfl) (by show 0 + q.val = l.val; omega)

/-- A lane of the second piece. -/
theorem concatenate2_right (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2))
    (r : Fin R) (l : Fin w) (q : Fin n₂) (hl : l.val = n₁ + q.val) :
    concatenate ⟨2, ![R, w]⟩ (1 : Fin 2) [⟨⟨2, ![R, n₁]⟩, a⟩, ⟨⟨2, ![R, n₂]⟩, b⟩] h (ix2 r l) = b (ix2 r q) :=
  concatenate_apply_piece (1 : Fin 2) _ h (ix2 r l) 1 (by simp) ⟨2, ![R, n₂]⟩ b rfl rfl n₁ (by simp)
    (ix2 r q) (off_axis r l _ rfl) (by show n₁ + q.val = l.val; omega)

end Cert.LibConcat2
-- ==== Proof.LibRowGather.lean ====
/-
  Rows gathered and scatter-added through an index column.

  For an array `H : [N, C]` and a column of start indices `idx : [E, 1]`, the gather that takes row `idx[e]` for every
  `e` reads `H` at the start index taken signed and clamped into `[0, N - 1]`; the same for a vector `D : [N]`. The
  scatter-add of updates `u : [E, C]` through a column of indices adds `u[e, c]` to element `(idx[e], c)` when the
  signed index lies in `[0, N)` and drops it otherwise. So an update that lands on row `n` has index word `n`, and
  a factor that depends only on the landing row — nonnegative and not `+∞`, so that it distributes over a sum of
  extended reals — moves out of the scatter-add.
-/
import Mathlib
import Idealize.ShloMosaic.PureOps.Ideal
import Idealize.ShloMosaic.PureOps.Ideal.Laws
import Idealize.ShloMosaic.Lib.ValueIdx

noncomputable section

open scoped BigOperators

namespace Cert.LibRowGather

open Idealize.ShloMosaic Idealize.ShloMosaic.ValueIdx

variable {α : Type}

/-- Dimension numbers of `D[idx]` for `D : [N]`, `idx : [E, 1]`, result `[E]`. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of `H[idx]` (whole rows) for `H : [N, C]`, `idx : [E, 1]`, result `[E, C]`. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of the row scatter: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The index-column position of edge `e`. -/
abbrev edgeIdx {E : Nat} (e : Fin E) : (⟨2, ![E, 1]⟩ : Shape).Idx := ix2 e (0 : Fin 1)

/-- A start-index word read signed and clamped into `[0, N - 1]`. -/
def rowOf (N : Nat) (hN : 0 < N) {w : Nat} (b : BitVec w) : Fin N := ⟨min b.toInt.toNat (N - 1), by omega⟩

/-- A word whose signed value is a row number below `N` clamps to that row. -/
theorem rowOf_of_toInt {N : Nat} (hN : 0 < N) {w : Nat} (b : BitVec w) (n : Fin N) (h : b.toInt = (n.val : ℤ)) :
    rowOf N hN b = n := by
  refine Fin.ext ?_
  unfold rowOf
  show min b.toInt.toNat (N - 1) = n.val
  rw [h, Int.toNat_natCast]
  have := n.isLt
  omega

/-- The vector gather at edge `e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf N hN (idx (edgeIdx e)))) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = edgeIdx e := by
    funext b; refine Fin.ext ?_
    match b with
    | ⟨0, _⟩ => rfl
    | ⟨1, _⟩ => rfl
  rw [hsi]
  rfl

/-- The row gather at edge `e`, lane `c`. -/
theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (rowOf N hN (idx (edgeIdx e))) c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = edgeIdx e := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    have hs : (rowDims N E C wf).start (ix2 e c) idx 1 = 0 := by
      unfold GatherDims.start
      rw [dif_neg (show ¬ (1 : Fin 2) ∈ (rowDims N E C wf).startIndexMap from
        (by decide : ¬ (1 : Fin 2) ∈ ([0] : List (Fin 2))))]
    have ho : (rowDims N E C wf).offCoord (ix2 e c) 1 = c.val := by
      unfold GatherDims.offCoord
      rw [dif_pos (show (1 : Fin 2) ∈ (rowDims N E C wf).sKept from
        (GatherDims.mem_sKept _ _).mpr ⟨(by decide : ¬ (1 : Fin 2) ∈ ([0] : List (Fin 2))), List.not_mem_nil⟩)]
      rfl
    rw [hs, ho, Nat.zero_add]

/-- An update `(e, c)` that the row scatter lands on element `(n, c')` has index word `n` (signed) and `c = c'`. -/
theorem scatter_row_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C)
    (h : (rowScatterDims N E C wf).resultIdx? (ix2 e c) idx = some (ix2 n c')) :
    (idx (edgeIdx e)).toInt = (n.val : ℤ) ∧ c = c' := by
  have hs0 : (rowScatterDims N E C wf).start (ix2 e c) idx 0 = (idx (edgeIdx e)).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = edgeIdx e := by
      funext b; refine Fin.ext ?_
      match b with
      | ⟨0, _⟩ => rfl
      | ⟨1, _⟩ => rfl
    rw [hsi]
  have hs1 : (rowScatterDims N E C wf).start (ix2 e c) idx 1 = 0 := by
    unfold ScatterDims.start
    rw [dif_neg (show ¬ (1 : Fin 2) ∈ (rowScatterDims N E C wf).scatterDimsToOperandDims from
      (by decide : ¬ (1 : Fin 2) ∈ ([0] : List (Fin 2))))]
  have hw0 : (rowScatterDims N E C wf).window (ix2 e c) 0 = 0 := by
    unfold ScatterDims.window
    rw [dif_neg (show ¬ (0 : Fin 2) ∈ (rowScatterDims N E C wf).sKept from
      (by decide : ¬ (0 : Fin 2) ∈ (List.finRange 2).filter (fun a => a ∉ ([0] : List (Fin 2)))))]
  have hw1 : (rowScatterDims N E C wf).window (ix2 e c) 1 = c.val := by
    unfold ScatterDims.window
    rw [dif_pos (show (1 : Fin 2) ∈ (rowScatterDims N E C wf).sKept from
      (by decide : (1 : Fin 2) ∈ (List.finRange 2).filter (fun a => a ∉ ([0] : List (Fin 2)))))]
    rfl
  unfold ScatterDims.resultIdx? at h
  split at h
  · rename_i hall
    have h' := Option.some.inj h
    have h0 : ((rowScatterDims N E C wf).start (ix2 e c) idx 0 + (rowScatterDims N E C wf).window (ix2 e c) 0).toNat
        = n.val := congrArg (fun f => (f 0).val) h'
    have h1 : ((rowScatterDims N E C wf).start (ix2 e c) idx 1 + (rowScatterDims N E C wf).window (ix2 e c) 1).toNat
        = c'.val := congrArg (fun f => (f 1).val) h'
    have ha0 := (hall 0).1
    rw [hs0, hw0] at h0 ha0
    rw [hs1, hw1] at h1
    refine ⟨?_, Fin.ext ?_⟩
    · omega
    · omega
  · exact absurd h (by simp)

/-- A nonnegative factor other than `+∞` distributes over a finite sum of extended reals. -/
theorem mul_sum_of_nonneg_ne_top {ι : Type*} (s : Finset ι) (f : ι → EReal) {a : EReal} (h0 : 0 ≤ a) (ht : a ≠ ⊤) :
    a * ∑ j ∈ s, f j = ∑ j ∈ s, a * f j := by
  classical
  induction s using Finset.induction_on with
  | empty => simp
  | insert j s hj ih =>
    rw [Finset.sum_insert hj, Finset.sum_insert hj, EReal.left_distrib_of_nonneg_of_ne_top h0 ht, ih]

/-- A factor `a` (nonnegative, not `+∞`) carried by every update that lands on element `i` moves out of the
    scatter-add into zero at `i`. -/
theorem hostScatterAdd_scale {s si su : Shape} (d : ScatterDims s si su) {w : Nat} (Z : s.Idx → EReal) (idx : IVec si w)
    (f g : su.Idx → EReal) (i : s.Idx) (hZ : Z i = 0) {a : EReal} (h0 : 0 ≤ a) (ht : a ≠ ⊤)
    (hfg : ∀ j, d.resultIdx? j idx = some i → f j = a * g j) :
    Ideal.hostScatterAdd d Z idx f i = a * Ideal.hostScatterAdd d Z idx g i := by
  show Z i + _ = a * (Z i + _)
  rw [hZ, zero_add, zero_add, mul_sum_of_nonneg_ne_top _ _ h0 ht]
  refine Finset.sum_congr rfl fun j hj => ?_
  exact hfg j (Finset.mem_filter.mp hj).2

/-- Equal updates on what lands at `i` give equal scatter-adds at `i`. -/
theorem hostScatterAdd_congr {s si su : Shape} (d : ScatterDims s si su) {w : Nat} (Z Z' : s.Idx → EReal) (idx : IVec si w)
    (f g : su.Idx → EReal) (i : s.Idx) (hZ : Z i = Z' i)
    (hfg : ∀ j, d.resultIdx? j idx = some i → f j = g j) :
    Ideal.hostScatterAdd d Z idx f i = Ideal.hostScatterAdd d Z' idx g i := by
  show Z i + _ = Z' i + _
  rw [hZ]
  congr 1
  refine Finset.sum_congr rfl fun j hj => ?_
  exact hfg j (Finset.mem_filter.mp hj).2

/-- The reciprocal square root of an extended real that is at least one is a nonnegative extended real other than `+∞`. -/
theorem rsqrt_of_one_le (y : EReal) (h : 1 ≤ y) : 0 ≤ Ideal.rsqrt y ∧ Ideal.rsqrt y ≠ ⊤ := by
  induction y using EReal.rec with
  | bot => exact absurd h (not_le.mpr (EReal.bot_lt_coe 1))
  | top => exact ⟨le_refl _, EReal.zero_ne_top⟩
  | coe r =>
    have hr : (1 : ℝ) ≤ r := by exact_mod_cast h
    have h1 : ¬ r < 0 := by linarith
    have h2 : ¬ r = 0 := by intro h0; rw [h0] at hr; linarith
    have hv : Ideal.rsqrt (r : EReal) = (((Real.sqrt r)⁻¹ : ℝ) : EReal) := by
      show (if r < 0 then ⊥ else if r = 0 then ⊤ else (((Real.sqrt r)⁻¹ : ℝ) : EReal)) = _
      rw [if_neg h1, if_neg h2]
    rw [hv]
    exact ⟨EReal.coe_nonneg.mpr (inv_nonneg.mpr (Real.sqrt_nonneg r)), EReal.coe_ne_top _⟩

end Cert.LibRowGather

end
-- ==== Proof.LibRowScatterSum.lean ====
/-
  A row scatter-add through an index column, read at an entry as a sum over the edges that land on the row.

  For an operand [N, C], indices [E, 1] and updates [E, C], update (e, c) lands on entry (n, c') exactly when
  the signed index word of e is n and c = c'. So the scatter-add at entry (n, c) is the operand's entry plus the sum,
  over the edges e whose word is n, of the update (e, c); and the same for a vector operand [N] with updates [E].
-/
import Mathlib
import Idealize.ShloMosaic.PureOps.Ideal
import Idealize.ShloMosaic.PureOps.Ideal.Laws
import Idealize.ShloMosaic.Lib.ValueIdx
import proofs.«150135_j76733885710552_2_alg».proof.Proof.LibRowGather

noncomputable section

open scoped BigOperators

namespace Cert.LibRowScatterSum

open Idealize.ShloMosaic Idealize.ShloMosaic.ValueIdx Cert.LibRowGather

variable {N E C w : Nat} (wf : ScatterDims.WF ⟨2, ![N, C]⟩ ⟨2, ![E, 1]⟩ ⟨2, ![E, C]⟩ [1] [0] [0] 1)

/-- The window of update (e, c) starts, on the row axis, at the signed index word of e. -/
theorem start_row (idx : IVec ⟨2, ![E, 1]⟩ w) (e : Fin E) (c : Fin C) :
    (rowScatterDims N E C wf).start (ix2 e c) idx 0 = (idx (edgeIdx e)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = edgeIdx e := by
    funext b; refine Fin.ext ?_
    match b with
    | ⟨0, _⟩ => rfl
    | ⟨1, _⟩ => rfl
  rw [hsi]

/-- … and, on the lane axis, at zero. -/
theorem start_lane (idx : IVec ⟨2, ![E, 1]⟩ w) (e : Fin E) (c : Fin C) :
    (rowScatterDims N E C wf).start (ix2 e c) idx 1 = 0 := by
  unfold ScatterDims.start
  rw [dif_neg (show ¬ (1 : Fin 2) ∈ (rowScatterDims N E C wf).scatterDimsToOperandDims from
    (by decide : ¬ (1 : Fin 2) ∈ ([0] : List (Fin 2))))]

/-- The window coordinate of update (e, c) is zero on the row axis … -/
theorem window_row (e : Fin E) (c : Fin C) : (rowScatterDims N E C wf).window (ix2 e c) 0 = 0 := by
  unfold ScatterDims.window
  rw [dif_neg (show ¬ (0 : Fin 2) ∈ (rowScatterDims N E C wf).sKept from
    (by decide : ¬ (0 : Fin 2) ∈ (List.finRange 2).filter (fun a => a ∉ ([0] : List (Fin 2)))))]

/-- … and its lane on the lane axis. -/
theorem window_lane (e : Fin E) (c : Fin C) : (rowScatterDims N E C wf).window (ix2 e c) 1 = c.val := by
  unfold ScatterDims.window
  rw [dif_pos (show (1 : Fin 2) ∈ (rowScatterDims N E C wf).sKept from
    (by decide : (1 : Fin 2) ∈ (List.finRange 2).filter (fun a => a ∉ ([0] : List (Fin 2)))))]
  rfl

/-- Update (e, c) lands on entry (n, c') exactly when the signed word of e is n and the lanes agree. -/
theorem lands_iff (idx : IVec ⟨2, ![E, 1]⟩ w) (e : Fin E) (c : Fin C) (n : Fin N) (c' : Fin C) :
    (rowScatterDims N E C wf).resultIdx? (ix2 e c) idx = some (ix2 n c')
      ↔ (idx (edgeIdx e)).toInt = (n.val : ℤ) ∧ c = c' := by
  constructor
  · exact scatter_row_lands wf idx e c n c'
  · rintro ⟨hw, rfl⟩
    have hall : ∀ a, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := by
      intro a
      match a with
      | ⟨0, _⟩ =>
        have h0 := start_row wf idx e c
        have h1 := window_row wf e c
        have hn := n.isLt
        show 0 ≤ (rowScatterDims N E C wf).start (ix2 e c) idx 0 + ((rowScatterDims N E C wf).window (ix2 e c) 0 : ℤ)
          ∧ (rowScatterDims N E C wf).start (ix2 e c) idx 0 + ((rowScatterDims N E C wf).window (ix2 e c) 0 : ℤ) < (N : ℤ)
        rw [h0, h1, hw]; constructor <;> omega
      | ⟨1, _⟩ =>
        have h0 := start_lane wf idx e c
        have h1 := window_lane wf e c
        have hc := c.isLt
        show 0 ≤ (rowScatterDims N E C wf).start (ix2 e c) idx 1 + ((rowScatterDims N E C wf).window (ix2 e c) 1 : ℤ)
          ∧ (rowScatterDims N E C wf).start (ix2 e c) idx 1 + ((rowScatterDims N E C wf).window (ix2 e c) 1 : ℤ) < (C : ℤ)
        rw [h0, h1]; constructor <;> omega
    unfold ScatterDims.resultIdx?
    rw [dif_pos hall]
    refine congrArg some ?_
    funext a
    refine Fin.ext ?_
    match a with
    | ⟨0, _⟩ =>
      show ((rowScatterDims N E C wf).start (ix2 e c) idx 0 + ((rowScatterDims N E C wf).window (ix2 e c) 0 : ℤ)).toNat = n.val
      rw [start_row wf idx e c, window_row wf e c, hw]; omega
    | ⟨1, _⟩ =>
      show ((rowScatterDims N E C wf).start (ix2 e c) idx 1 + ((rowScatterDims N E C wf).window (ix2 e c) 1 : ℤ)).toNat = c.val
      rw [start_lane wf idx e c, window_lane wf e c]; omega

/-- The row scatter-add at entry (n, c): the operand's entry plus the updates (e, c) of the edges whose word is n. -/
theorem hostScatterAdd_rows_apply (Z : (⟨2, ![N, C]⟩ : Shape).Idx → EReal) (idx : IVec ⟨2, ![E, 1]⟩ w)
    (u : (⟨2, ![E, C]⟩ : Shape).Idx → EReal) (n : Fin N) (c : Fin C) :
    Ideal.hostScatterAdd (rowScatterDims N E C wf) Z idx u (ix2 n c)
      = Z (ix2 n c) + ∑ e ∈ Finset.univ.filter (fun e : Fin E => (idx (edgeIdx e)).toInt = (n.val : ℤ)), u (ix2 e c) := by
  classical
  show Z (ix2 n c) + _ = _
  congr 1
  rw [Finset.sum_filter, sum_idx2, Finset.sum_filter]
  refine Finset.sum_congr rfl fun e _ => ?_
  by_cases hw : (idx (edgeIdx e)).toInt = (n.val : ℤ)
  · rw [if_pos hw, Finset.sum_eq_single c]
    · rw [if_pos ((lands_iff wf idx e c n c).mpr ⟨hw, rfl⟩)]
    · intro c₁ _ hne
      rw [if_neg]
      intro h
      exact hne ((lands_iff wf idx e c₁ n c).mp h).2
    · intro h; exact absurd (Finset.mem_univ c) h
  · rw [if_neg hw]
    refine Finset.sum_eq_zero fun c₁ _ => ?_
    rw [if_neg]
    intro h
    exact hw ((lands_iff wf idx e c₁ n c).mp h).1

end Cert.LibRowScatterSum

end
-- ==== Proof.LibRowDims.lean ====
/-
  Row gathers and row scatter-adds through an index column, for any dimension-number record with the right fields.

  A record of gather (or scatter) dimension numbers is determined by its fields. So the readings of the row gather and of
  the row scatter-add at an entry hold for every record whose fields say "rows through an index column", whatever name a
  program gives that record.
-/
import Mathlib
import Idealize.ShloMosaic.PureOps.Ideal
import Idealize.ShloMosaic.PureOps.Ideal.Laws
import Idealize.ShloMosaic.Lib.ValueIdx
import proofs.«150135_j76733885710552_2_alg».proof.Proof.LibRowGather
import proofs.«150135_j76733885710552_2_alg».proof.Proof.LibRowScatterSum

noncomputable section

open scoped BigOperators

namespace Cert.LibRowDims

open Idealize.ShloMosaic Idealize.ShloMosaic.ValueIdx Cert.LibRowGather

variable {N E C w : Nat}

/-- The row scatter-add at entry (n, c), for any record with the row-scatter fields. -/
theorem hostScatterAdd_rows_apply (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (Z : (⟨2, ![N, C]⟩ : Shape).Idx → EReal) (idx : IVec ⟨2, ![E, 1]⟩ w)
    (u : (⟨2, ![E, C]⟩ : Shape).Idx → EReal) (n : Fin N) (c : Fin C) :
    Ideal.hostScatterAdd d Z idx u (ix2 n c)
      = Z (ix2 n c) + ∑ e ∈ Finset.univ.filter (fun e : Fin E => (idx (edgeIdx e)).toInt = (n.val : ℤ)), u (ix2 e c) := by
  obtain ⟨uw, iw, sd, iv, wf⟩ := d
  dsimp only at h1 h2 h3 h4
  subst h1 h2 h3 h4
  exact Cert.LibRowScatterSum.hostScatterAdd_rows_apply wf Z idx u n c

/-- The row gather at edge e, lane c, for any record with the row-gather fields. -/
theorem gather_row_apply {α : Type} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 (rowOf N hN (idx (edgeIdx e))) c) := by
  obtain ⟨od, cs, ob, sb, sm, iv, ss, wf⟩ := d
  dsimp only at h1 h2 h3 h4 h5 h6 h7
  subst h1 h2 h3 h4 h5 h6 h7
  exact Cert.LibRowGather.gather_row_apply hN wf x idx e c

end Cert.LibRowDims

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibFusedColumns.lean ====
/-
  A graph convolution read at an entry, and its columns when the weight matrix is two blocks side by side.

  The chain is: the product H · W of H : [N, K] with W : [K, C]; the rows of that product gathered through a column of
  source indices (each index read signed and clamped into [0, N - 1]); each gathered entry scaled by an array S : [E, C];
  the scaled rows scatter-added through a column of destination indices into an array Z : [N, C] (an update lands on row
  n when the signed destination word is n, and is dropped when the word is outside [0, N)); and an array B : [N, C] added.

  Read at entry (n, c) the chain is
      (Z[n, c] + Σ over the edges e whose destination word is n of S[e, c] · Σ over k of H[row(src e), k] · W[k, c]) + B[n, c],
  and this mentions W, S, Z and B only through their column c. So when column l of one chain's W, S, Z, B is column q of
  another chain's (a weight matrix made of two blocks side by side, its bias made the same way, and scale and zero arrays
  that do not depend on the column), entry (n, l) of the first chain is entry (n, q) of the second, summand by summand:
  no arithmetic of the extended reals beyond rewriting equal summands is used, and no finiteness.
-/
import Mathlib
import Idealize.ShloMosaic.PureOps.Ideal
import Idealize.ShloMosaic.PureOps.Ideal.Laws
import Idealize.ShloMosaic.Lib.ValueIdx
import Idealize.ShloMosaic.Lib.Pipeline.Value
import proofs.«150135_j76733885710552_2_alg».proof.Proof.LibRowGather
import proofs.«150135_j76733885710552_2_alg».proof.Proof.LibRowDims
import proofs.«150135_j76733885710552_2_alg».proof.Proof.LibDotRows

noncomputable section

open scoped BigOperators

namespace Cert.LibFusedColumns

open Idealize.ShloMosaic Idealize.ShloMosaic.ValueIdx Cert.LibRowGather

/-- Entry (p, q) of the host's product x · w is the sum over k of x[p, k] · w[k, q], for any record of dimension numbers
    whose fields say "contract axis 1 of the left operand with axis 0 of the right one, no batch axis". -/
theorem dotGeneral_rows_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ φ₁) (w : FVec Ideal ⟨2, ![K, N]⟩ φ₂) (p : Fin M) (q : Fin N) :
    Host.dotGeneral (F := Ideal) d none x w (ix2 p q) = ∑ k : Fin K, x (ix2 p k) * w (ix2 k q) := by
  obtain ⟨lc, rc, ln, rn, lb, rb, wf⟩ := d
  dsimp only at h1 h2 h3 h4 h5 h6
  subst h1 h2 h3 h4 h5 h6
  exact Cert.Lib.DotRows.dotGeneral_plain_apply x w p q

section Chain

variable {N E K C w : Nat} (hN : 0 < N)
  (dD : DotDims ⟨2, ![N, K]⟩ ⟨2, ![K, C]⟩ ⟨2, ![N, C]⟩)
  (hd1 : dD.lhsContracting = [1]) (hd2 : dD.rhsContracting = [0]) (hd3 : dD.lhsNonContracting = [0])
  (hd4 : dD.rhsNonContracting = [1]) (hd5 : dD.lhsBatch = []) (hd6 : dD.rhsBatch = [])
  (gD : GatherDims ⟨2, ![N, C]⟩ ⟨2, ![E, 1]⟩ ⟨2, ![E, C]⟩)
  (hg1 : gD.offsetDims = [1]) (hg2 : gD.collapsedSliceDims = [0]) (hg3 : gD.operandBatchingDims = [])
  (hg4 : gD.startIndicesBatchingDims = []) (hg5 : gD.startIndexMap = [0]) (hg6 : gD.indexVectorDim = 1)
  (hg7 : gD.sliceSizes = ![1, C])
  (sD : ScatterDims ⟨2, ![N, C]⟩ ⟨2, ![E, 1]⟩ ⟨2, ![E, C]⟩)
  (hs1 : sD.updateWindowDims = [1]) (hs2 : sD.insertedWindowDims = [0]) (hs3 : sD.scatterDimsToOperandDims = [0])
  (hs4 : sD.indexVectorDim = 1)

include hd1 hd2 hd3 hd4 hd5 hd6 hg1 hg2 hg3 hg4 hg5 hg6 hg7 hs1 hs2 hs3 hs4 in
/-- THE CHAIN READ AT ENTRY (n, c). -/
theorem conv_apply (H : FVec Ideal ⟨2, ![N, K]⟩ .f32) (W : FVec Ideal ⟨2, ![K, C]⟩ .f32)
    (srcCol dstCol : IVec ⟨2, ![E, 1]⟩ w) (S : FVec Ideal ⟨2, ![E, C]⟩ .f32) (Z B : FVec Ideal ⟨2, ![N, C]⟩ .f32)
    (n : Fin N) (c : Fin C) :
    addf (Host.scatterAdd sD Z dstCol (mulf S (Host.gather gD (Host.dotGeneral dD none H W) srcCol))) B (ix2 n c)
      = (Z (ix2 n c) + ∑ e ∈ Finset.univ.filter (fun e : Fin E => (dstCol (edgeIdx e)).toInt = (n.val : ℤ)),
            S (ix2 e c) * ∑ k : Fin K, H (ix2 (rowOf N hN (srcCol (edgeIdx e))) k) * W (ix2 k c))
          + B (ix2 n c) := by
  show Ideal.hostScatterAdd sD Z dstCol (mulf S (Host.gather gD (Host.dotGeneral dD none H W) srcCol)) (ix2 n c)
      + B (ix2 n c) = _
  rw [Cert.LibRowDims.hostScatterAdd_rows_apply sD hs1 hs2 hs3 hs4]
  refine congrArg (fun t => (Z (ix2 n c) + t) + B (ix2 n c)) (Finset.sum_congr rfl fun e _ => ?_)
  show S (ix2 e c) * Host.gather gD (Host.dotGeneral dD none H W) srcCol (ix2 e c) = _
  rw [Cert.LibRowDims.gather_row_apply hN gD hg1 hg2 hg3 hg4 hg5 hg6 hg7,
    dotGeneral_rows_apply dD hd1 hd2 hd3 hd4 hd5 hd6]

end Chain

/-- THE COLUMNS OF A FUSED CHAIN. Two chains over the same H and the same index columns, the first with C₁ columns and the
    second with C₂. If column l of the first chain's weight, scale, zero and bias arrays is column q of the second's, then
    entry (n, l) of the first chain is entry (n, q) of the second. -/
theorem conv_column_eq {N E K C₁ C₂ w : Nat} (hN : 0 < N)
    (dD₁ : DotDims ⟨2, ![N, K]⟩ ⟨2, ![K, C₁]⟩ ⟨2, ![N, C₁]⟩)
    (hd1 : dD₁.lhsContracting = [1]) (hd2 : dD₁.rhsContracting = [0]) (hd3 : dD₁.lhsNonContracting = [0])
    (hd4 : dD₁.rhsNonContracting = [1]) (hd5 : dD₁.lhsBatch = []) (hd6 : dD₁.rhsBatch = [])
    (gD₁ : GatherDims ⟨2, ![N, C₁]⟩ ⟨2, ![E, 1]⟩ ⟨2, ![E, C₁]⟩)
    (hg1 : gD₁.offsetDims = [1]) (hg2 : gD₁.collapsedSliceDims = [0]) (hg3 : gD₁.operandBatchingDims = [])
    (hg4 : gD₁.startIndicesBatchingDims = []) (hg5 : gD₁.startIndexMap = [0]) (hg6 : gD₁.indexVectorDim = 1)
    (hg7 : gD₁.sliceSizes = ![1, C₁])
    (sD₁ : ScatterDims ⟨2, ![N, C₁]⟩ ⟨2, ![E, 1]⟩ ⟨2, ![E, C₁]⟩)
    (hs1 : sD₁.updateWindowDims = [1]) (hs2 : sD₁.insertedWindowDims = [0]) (hs3 : sD₁.scatterDimsToOperandDims = [0])
    (hs4 : sD₁.indexVectorDim = 1)
    (dD₂ : DotDims ⟨2, ![N, K]⟩ ⟨2, ![K, C₂]⟩ ⟨2, ![N, C₂]⟩)
    (kd1 : dD₂.lhsContracting = [1]) (kd2 : dD₂.rhsContracting = [0]) (kd3 : dD₂.lhsNonContracting = [0])
    (kd4 : dD₂.rhsNonContracting = [1]) (kd5 : dD₂.lhsBatch = []) (kd6 : dD₂.rhsBatch = [])
    (gD₂ : GatherDims ⟨2, ![N, C₂]⟩ ⟨2, ![E, 1]⟩ ⟨2, ![E, C₂]⟩)
    (kg1 : gD₂.offsetDims = [1]) (kg2 : gD₂.collapsedSliceDims = [0]) (kg3 : gD₂.operandBatchingDims = [])
    (kg4 : gD₂.startIndicesBatchingDims = []) (kg5 : gD₂.startIndexMap = [0]) (kg6 : gD₂.indexVectorDim = 1)
    (kg7 : gD₂.sliceSizes = ![1, C₂])
    (sD₂ : ScatterDims ⟨2, ![N, C₂]⟩ ⟨2, ![E, 1]⟩ ⟨2, ![E, C₂]⟩)
    (ks1 : sD₂.updateWindowDims = [1]) (ks2 : sD₂.insertedWindowDims = [0]) (ks3 : sD₂.scatterDimsToOperandDims = [0])
    (ks4 : sD₂.indexVectorDim = 1)
    (H : FVec Ideal ⟨2, ![N, K]⟩ .f32) (srcCol dstCol : IVec ⟨2, ![E, 1]⟩ w)
    (W₁ : FVec Ideal ⟨2, ![K, C₁]⟩ .f32) (S₁ : FVec Ideal ⟨2, ![E, C₁]⟩ .f32) (Z₁ B₁ : FVec Ideal ⟨2, ![N, C₁]⟩ .f32)
    (W₂ : FVec Ideal ⟨2, ![K, C₂]⟩ .f32) (S₂ : FVec Ideal ⟨2, ![E, C₂]⟩ .f32) (Z₂ B₂ : FVec Ideal ⟨2, ![N, C₂]⟩ .f32)
    (n : Fin N) (l : Fin C₁) (q : Fin C₂)
    (hW : ∀ k : Fin K, W₁ (ix2 k l) = W₂ (ix2 k q)) (hS : ∀ e : Fin E, S₁ (ix2 e l) = S₂ (ix2 e q))
    (hZ : Z₁ (ix2 n l) = Z₂ (ix2 n q)) (hB : B₁ (ix2 n l) = B₂ (ix2 n q)) :
    addf (Host.scatterAdd sD₁ Z₁ dstCol (mulf S₁ (Host.gather gD₁ (Host.dotGeneral dD₁ none H W₁) srcCol))) B₁ (ix2 n l)
      = addf (Host.scatterAdd sD₂ Z₂ dstCol (mulf S₂ (Host.gather gD₂ (Host.dotGeneral dD₂ none H W₂) srcCol))) B₂ (ix2 n q) := by
  rw [conv_apply hN dD₁ hd1 hd2 hd3 hd4 hd5 hd6 gD₁ hg1 hg2 hg3 hg4 hg5 hg6 hg7 sD₁ hs1 hs2 hs3 hs4,
    conv_apply hN dD₂ kd1 kd2 kd3 kd4 kd5 kd6 gD₂ kg1 kg2 kg3 kg4 kg5 kg6 kg7 sD₂ ks1 ks2 ks3 ks4, hZ, hB]
  refine congrArg (fun t => (Z₂ (ix2 n q) + t) + B₂ (ix2 n q)) (Finset.sum_congr rfl fun e _ => ?_)
  rw [hS e]
  exact congrArg (S₂ (ix2 e q) * ·) (Finset.sum_congr rfl fun k _ => by rw [hW k])

/-! ## Arrays that do not depend on the column, and vectors joined end to end -/

section ColumnFree

variable {α : Type}

/-- A vector [E] written as a column [E, 1] and repeated along C lanes reads, at (e, c), the vector at e. -/
theorem rowScale_apply {E C : Nat} (hE : E ≠ 1)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2))
    (x : (⟨1, ![E]⟩ : Shape).Idx → α) (e : Fin E) (c : Fin C) :
    broadcastInDim ⟨2, ![E, C]⟩ ![0, 1] h2 (broadcastInDim ⟨2, ![E, 1]⟩ ![0] h1 x) (ix2 e c) = x (ix1 e) := by
  rw [broadcastInDim_apply _ h2 _ (ix2 e c) (ix2 e (0 : Fin 1)) (fun a => by
      match a with
      | ⟨0, _⟩ => show e.val = if E = 1 then 0 else e.val; rw [if_neg hE]
      | ⟨1, _⟩ => show 0 = if (1 : Nat) = 1 then 0 else c.val; rw [if_pos rfl]),
    broadcastInDim_apply _ h1 x (ix2 e (0 : Fin 1)) (ix1 e) (fun a => by
      match a with
      | ⟨0, _⟩ => show e.val = if E = 1 then 0 else e.val; rw [if_neg hE])]

/-- A vector [C] written as a row [1, C] and repeated along N rows reads, at (n, c), the vector at c. -/
theorem laneBias_apply {N C : Nat} (hC : C ≠ 1)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (x : (⟨1, ![C]⟩ : Shape).Idx → α) (n : Fin N) (c : Fin C) :
    broadcastInDim ⟨2, ![N, C]⟩ ![0, 1] h2 (broadcastInDim ⟨2, ![1, C]⟩ ![1] h1 x) (ix2 n c) = x (ix1 c) := by
  rw [broadcastInDim_apply _ h2 _ (ix2 n c) (ix2 (0 : Fin 1) c) (fun a => by
      match a with
      | ⟨0, _⟩ => show 0 = if (1 : Nat) = 1 then 0 else n.val; rw [if_pos rfl]
      | ⟨1, _⟩ => show c.val = if C = 1 then 0 else c.val; rw [if_neg hC]),
    broadcastInDim_apply _ h1 x (ix2 (0 : Fin 1) c) (ix1 c) (fun a => by
      match a with
      | ⟨0, _⟩ => show c.val = if C = 1 then 0 else c.val; rw [if_neg hC])]

/-- The join of a vector [A] and a vector [B] reads, at a position below A, the first vector there. -/
theorem join_left {A B T : Nat} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1)) (q : Fin A) (j : Fin T)
    (hj : j.val = q.val) :
    concatenate ⟨1, ![T]⟩ (0 : Fin 1) [⟨⟨1, ![A]⟩, x₁⟩, ⟨⟨1, ![B]⟩, x₂⟩] h (ix1 j) = x₁ (ix1 q) :=
  concatenate_pair_apply_left (0 : Fin 1) x₁ x₂ h (ix1 j) rfl (ix1 q) (fun b => by
    match b with
    | ⟨0, _⟩ => exact hj.symm)

/-- … and, at position A + q with q below B, the second vector at q. -/
theorem join_right {A B T : Nat} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1)) (q : Fin B) (j : Fin T)
    (hj : j.val = A + q.val) :
    concatenate ⟨1, ![T]⟩ (0 : Fin 1) [⟨⟨1, ![A]⟩, x₁⟩, ⟨⟨1, ![B]⟩, x₂⟩] h (ix1 j) = x₂ (ix1 q) :=
  concatenate_pair_apply_right (0 : Fin 1) x₁ x₂ h (ix1 j) rfl rfl (ix1 q)
    (fun b hb => absurd (Subsingleton.elim _ _) hb) (by show q.val + A = j.val; omega)

end ColumnFree

end Cert.LibFusedColumns

end
-- ==== Proof.FusedConv.lean ====
/-
  The latent matrix z, computed with one fused graph convolution or with two.

  One program multiplies h by the weight matrix [W2 | W3] (the two [128, 64] blocks side by side), gathers the rows of
  the product through the source indices, scales each gathered row by the edge's norm, scatter-adds the rows through the
  destination indices into zeros, adds the bias [b2 | b3], and then cuts the [10000, 128] result into its left half μ and
  its right half ℓ; z = μ + noise · exp ℓ. The other program runs that chain twice, once with (W2, b2) for μ and once with
  (W3, b3) for ℓ.

  Entry (n, c) of such a chain mentions the weight matrix and the bias only through their column c
  (LibFusedColumns: `conv_column_eq`). Column c of [W2 | W3] is column c of W2 for c < 64 and column c − 64 of W3 for
  c ≥ 64, and the same holds for the bias; the zeros and the scale do not depend on the column. Hence the left half of
  the fused result is the first chain's and its right half the second's, entry by entry, and the two z agree.
-/
import proofs.«150135_j76733885710552_2_alg».proof.KernelIdeal
import proofs.«150135_j76733885710552_2_alg».proof.ReferenceIdeal
import Idealize.ShloMosaic.Lib.Pipeline.Value
import Idealize.ShloMosaic.Lib.ValueIdx
import Idealize.ShloMosaic.PureOps.Ideal.Laws
import proofs.«150135_j76733885710552_2_alg».proof.Proof.LibConcat2
import proofs.«150135_j76733885710552_2_alg».proof.Proof.LibFusedColumns

noncomputable section

namespace Cert.Bridge

open Idealize.ShloMosaic Idealize.ShloMosaic.ValueIdx

/-! ## The fused program's z -/

section Fused

open Cert.KernelIdeal Cert.KernelIdeal.Facts₀

variable [Cert.KernelIdeal.Facts]

/-- The source indices made non-negative (a negative index has 10000 added) and written as a column. -/
def srcColK (src : (⟨S170000, .i32⟩ : BufTy).Contents (Elt Ideal)) : (⟨S170000x1, .i32⟩ : BufTy).Contents (Elt Ideal) :=
  broadcastInDim S170000x1 ![0] bcast_S170000_S170000x1_0
    (select (cmpi .slt src (broadcastInDim S170000 ![] bcast_S_S170000 (constantI S_ 32 0#32)))
      (addi src (broadcastInDim S170000 ![] bcast_S_S170000 (constantI S_ 32 10000#32))) src)

/-- The fused chain: the [10000, 128] array whose halves are μ and ℓ. -/
def convK (h : (⟨S10000x128, .f32⟩ : BufTy).Contents (Elt Ideal)) (nrm : (⟨S170000, .f32⟩ : BufTy).Contents (Elt Ideal))
    (src dst : (⟨S170000, .i32⟩ : BufTy).Contents (Elt Ideal))
    (W2 W3 : (⟨S128x64, .f32⟩ : BufTy).Contents (Elt Ideal)) (b2 b3 : (⟨S64, .f32⟩ : BufTy).Contents (Elt Ideal)) :
    (⟨S10000x128, .f32⟩ : BufTy).Contents (Elt Ideal) :=
  addf (F := Ideal) (φ := .f32)
    (Host.scatterAdd (F := Ideal) (φ := .f32) scatter_S10000x128_S170000x1_S170000x128_1_0_0_1
      (broadcastInDim S10000x128 ![] bcast_S_S10000x128 (constant (F := Ideal) S_ .f32 0x00000000#32))
      (broadcastInDim S170000x1 ![0] bcast_S170000_S170000x1_0 dst)
      (mulf (F := Ideal) (φ := .f32)
        (broadcastInDim S170000x128 ![0, 1] bcast_S170000x1_S170000x128_0_1
          (broadcastInDim S170000x1 ![0] bcast_S170000_S170000x1_0 nrm))
        (Host.gather gather_S10000x128_S170000x1_S170000x128_1_0_n_n_0_1_1128
          (Host.dotGeneral (F := Ideal) (φ₁ := .f32) (φ₂ := .f32) dot_S10000x128_S128x128_S10000x128_1_0_0_1_n_n none h
            (concatenate S128x128 1 [⟨S128x64, W2⟩, ⟨S128x64, W3⟩] concatenates_S128x64_S128x64_S128x128_d1))
          (srcColK src))))
    (broadcastInDim S10000x128 ![0, 1] bcast_S1x128_S10000x128_0_1
      (broadcastInDim S1x128 ![1] bcast_S128_S1x128_1
        (concatenate S128 0 [⟨S64, b2⟩, ⟨S64, b3⟩] concatenates_S64_S64_S128_d0)))

/-- z of the fused program: the left half plus noise times the exponential of the right half. -/
def zK (h : (⟨S10000x128, .f32⟩ : BufTy).Contents (Elt Ideal)) (nrm : (⟨S170000, .f32⟩ : BufTy).Contents (Elt Ideal))
    (src dst : (⟨S170000, .i32⟩ : BufTy).Contents (Elt Ideal)) (noise : (⟨S10000x64, .f32⟩ : BufTy).Contents (Elt Ideal))
    (W2 W3 : (⟨S128x64, .f32⟩ : BufTy).Contents (Elt Ideal)) (b2 b3 : (⟨S64, .f32⟩ : BufTy).Contents (Elt Ideal)) :
    (⟨S10000x64, .f32⟩ : BufTy).Contents (Elt Ideal) :=
  addf (F := Ideal) (φ := .f32)
    (extractStridedSlice S10000x64 ![0, 0] (convK h nrm src dst W2 W3 b2 b3) slices_S10000x128_S10000x64_0_0)
    (mulf (F := Ideal) (φ := .f32) noise
      (Host.exp (F := Ideal) (φ := .f32)
        (extractStridedSlice S10000x64 ![0, 64] (convK h nrm src dst W2 W3 b2 b3) slices_S10000x128_S10000x64_0_64)))

end Fused

/-! ## The two-chain program's z -/

section Split

open Cert.ReferenceIdeal Cert.ReferenceIdeal.Facts₀

variable [Cert.ReferenceIdeal.Facts]

/-- The source indices made non-negative and written as a column. -/
def srcColR (src : (⟨S170000, .i32⟩ : BufTy).Contents (Elt Ideal)) : (⟨S170000x1, .i32⟩ : BufTy).Contents (Elt Ideal) :=
  broadcastInDim S170000x1 ![0] bcast_S170000_S170000x1_0
    (select (cmpi .slt src (broadcastInDim S170000 ![] bcast_S_S170000 (constantI S_ 32 0#32)))
      (addi src (broadcastInDim S170000 ![] bcast_S_S170000 (constantI S_ 32 10000#32))) src)

/-- One chain with a [128, 64] weight matrix and a [64] bias. -/
def convR (h : (⟨S10000x128, .f32⟩ : BufTy).Contents (Elt Ideal)) (nrm : (⟨S170000, .f32⟩ : BufTy).Contents (Elt Ideal))
    (src dst : (⟨S170000, .i32⟩ : BufTy).Contents (Elt Ideal))
    (W : (⟨S128x64, .f32⟩ : BufTy).Contents (Elt Ideal)) (b : (⟨S64, .f32⟩ : BufTy).Contents (Elt Ideal)) :
    (⟨S10000x64, .f32⟩ : BufTy).Contents (Elt Ideal) :=
  addf (F := Ideal) (φ := .f32)
    (Host.scatterAdd (F := Ideal) (φ := .f32) scatter_S10000x64_S170000x1_S170000x64_1_0_0_1
      (broadcastInDim S10000x64 ![] bcast_S_S10000x64 (constant (F := Ideal) S_ .f32 0x00000000#32))
      (broadcastInDim S170000x1 ![0] bcast_S170000_S170000x1_0 dst)
      (mulf (F := Ideal) (φ := .f32)
        (broadcastInDim S170000x64 ![0, 1] bcast_S170000x1_S170000x64_0_1
          (broadcastInDim S170000x1 ![0] bcast_S170000_S170000x1_0 nrm))
        (Host.gather gather_S10000x64_S170000x1_S170000x64_1_0_n_n_0_1_164
          (Host.dotGeneral (F := Ideal) (φ₁ := .f32) (φ₂ := .f32) dot_S10000x128_S128x64_S10000x64_1_0_0_1_n_n none h W)
          (srcColR src))))
    (broadcastInDim S10000x64 ![0, 1] bcast_S1x64_S10000x64_0_1 (broadcastInDim S1x64 ![1] bcast_S64_S1x64_1 b))

/-- z of the two-chain program: the first chain plus noise times the exponential of the second. -/
def zR (h : (⟨S10000x128, .f32⟩ : BufTy).Contents (Elt Ideal)) (nrm : (⟨S170000, .f32⟩ : BufTy).Contents (Elt Ideal))
    (src dst : (⟨S170000, .i32⟩ : BufTy).Contents (Elt Ideal)) (noise : (⟨S10000x64, .f32⟩ : BufTy).Contents (Elt Ideal))
    (W2 W3 : (⟨S128x64, .f32⟩ : BufTy).Contents (Elt Ideal)) (b2 b3 : (⟨S64, .f32⟩ : BufTy).Contents (Elt Ideal)) :
    (⟨S10000x64, .f32⟩ : BufTy).Contents (Elt Ideal) :=
  addf (F := Ideal) (φ := .f32) (convR h nrm src dst W2 b2)
    (mulf (F := Ideal) (φ := .f32) noise (Host.exp (F := Ideal) (φ := .f32) (convR h nrm src dst W3 b3)))

end Split

/-! ## The two agree -/

section Agree

variable [Cert.KernelIdeal.Facts] [Cert.ReferenceIdeal.Facts]
  (h : (⟨Cert.KernelIdeal.S10000x128, .f32⟩ : BufTy).Contents (Elt Ideal))
  (nrm : (⟨Cert.KernelIdeal.S170000, .f32⟩ : BufTy).Contents (Elt Ideal))
  (src dst : (⟨Cert.KernelIdeal.S170000, .i32⟩ : BufTy).Contents (Elt Ideal))
  (noise : (⟨Cert.KernelIdeal.S10000x64, .f32⟩ : BufTy).Contents (Elt Ideal))
  (W2 W3 : (⟨Cert.KernelIdeal.S128x64, .f32⟩ : BufTy).Contents (Elt Ideal))
  (b2 b3 : (⟨Cert.KernelIdeal.S64, .f32⟩ : BufTy).Contents (Elt Ideal))

/-- The left half of the fused chain is the chain with (W2, b2). -/
theorem convK_left (n : Fin 10000) (c : Fin 64) (l : Fin 128) (hl : l.val = c.val) :
    convK h nrm src dst W2 W3 b2 b3 (ix2 n l) = convR h nrm src dst W2 b2 (ix2 n c) := by
  unfold convK convR
  refine Cert.LibFusedColumns.conv_column_eq (N := 10000) (E := 170000) (K := 128) (C₁ := 128) (C₂ := 64) (by decide)
    Cert.KernelIdeal.dot_S10000x128_S128x128_S10000x128_1_0_0_1_n_n rfl rfl rfl rfl rfl rfl
    Cert.KernelIdeal.gather_S10000x128_S170000x1_S170000x128_1_0_n_n_0_1_1128 rfl rfl rfl rfl rfl rfl rfl
    Cert.KernelIdeal.scatter_S10000x128_S170000x1_S170000x128_1_0_0_1 rfl rfl rfl rfl
    Cert.ReferenceIdeal.dot_S10000x128_S128x64_S10000x64_1_0_0_1_n_n rfl rfl rfl rfl rfl rfl
    Cert.ReferenceIdeal.gather_S10000x64_S170000x1_S170000x64_1_0_n_n_0_1_164 rfl rfl rfl rfl rfl rfl rfl
    Cert.ReferenceIdeal.scatter_S10000x64_S170000x1_S170000x64_1_0_0_1 rfl rfl rfl rfl
    h (srcColK src) _ _ _ _ _ _ _ _ _ n l c ?_ ?_ ?_ ?_
  · intro k
    exact Cert.LibConcat2.concatenate2_left W2 W3 _ k l c hl
  · intro e
    rw [Cert.LibFusedColumns.rowScale_apply (by decide), Cert.LibFusedColumns.rowScale_apply (by decide)]
  · rfl
  · rw [Cert.LibFusedColumns.laneBias_apply (by decide), Cert.LibFusedColumns.laneBias_apply (by decide)]
    exact Cert.LibFusedColumns.join_left b2 b3 _ c l hl

/-- The right half of the fused chain is the chain with (W3, b3). -/
theorem convK_right (n : Fin 10000) (c : Fin 64) (l : Fin 128) (hl : l.val = 64 + c.val) :
    convK h nrm src dst W2 W3 b2 b3 (ix2 n l) = convR h nrm src dst W3 b3 (ix2 n c) := by
  unfold convK convR
  refine Cert.LibFusedColumns.conv_column_eq (N := 10000) (E := 170000) (K := 128) (C₁ := 128) (C₂ := 64) (by decide)
    Cert.KernelIdeal.dot_S10000x128_S128x128_S10000x128_1_0_0_1_n_n rfl rfl rfl rfl rfl rfl
    Cert.KernelIdeal.gather_S10000x128_S170000x1_S170000x128_1_0_n_n_0_1_1128 rfl rfl rfl rfl rfl rfl rfl
    Cert.KernelIdeal.scatter_S10000x128_S170000x1_S170000x128_1_0_0_1 rfl rfl rfl rfl
    Cert.ReferenceIdeal.dot_S10000x128_S128x64_S10000x64_1_0_0_1_n_n rfl rfl rfl rfl rfl rfl
    Cert.ReferenceIdeal.gather_S10000x64_S170000x1_S170000x64_1_0_n_n_0_1_164 rfl rfl rfl rfl rfl rfl rfl
    Cert.ReferenceIdeal.scatter_S10000x64_S170000x1_S170000x64_1_0_0_1 rfl rfl rfl rfl
    h (srcColK src) _ _ _ _ _ _ _ _ _ n l c ?_ ?_ ?_ ?_
  · intro k
    exact Cert.LibConcat2.concatenate2_right W2 W3 _ k l c hl
  · intro e
    rw [Cert.LibFusedColumns.rowScale_apply (by decide), Cert.LibFusedColumns.rowScale_apply (by decide)]
  · rfl
  · rw [Cert.LibFusedColumns.laneBias_apply (by decide), Cert.LibFusedColumns.laneBias_apply (by decide)]
    exact Cert.LibFusedColumns.join_right b2 b3 _ c l hl

/-- z at an entry depends on μ and ℓ only through that entry. -/
theorem z_of_halves {s : Shape} (noise μ μ' ℓ ℓ' : FVec Ideal s .f32) (i : s.Idx) (hμ : μ i = μ' i) (hℓ : ℓ i = ℓ' i) :
    addf (F := Ideal) (φ := .f32) μ (mulf (F := Ideal) (φ := .f32) noise (Host.exp (F := Ideal) (φ := .f32) ℓ)) i
      = addf (F := Ideal) (φ := .f32) μ' (mulf (F := Ideal) (φ := .f32) noise (Host.exp (F := Ideal) (φ := .f32) ℓ')) i := by
  show FloatOps.addf (μ i) (FloatOps.mulf (noise i) (FloatOps.hostUnary .exp (ℓ i)))
    = FloatOps.addf (μ' i) (FloatOps.mulf (noise i) (FloatOps.hostUnary .exp (ℓ' i)))
  rw [hμ, hℓ]

/-- THE TWO z ARE THE SAME ARRAY. -/
theorem z_fused_eq : zK h nrm src dst noise W2 W3 b2 b3 = zR h nrm src dst noise W2 W3 b2 b3 := by
  funext i
  obtain ⟨n, c, rfl⟩ : ∃ (n : Fin 10000) (c : Fin 64), i = ix2 n c := ⟨i 0, i 1, eq_ix2 i⟩
  have hμ : extractStridedSlice Cert.KernelIdeal.S10000x64 ![0, 0] (convK h nrm src dst W2 W3 b2 b3)
      Cert.KernelIdeal.Facts₀.slices_S10000x128_S10000x64_0_0 (ix2 n c) = convR h nrm src dst W2 b2 (ix2 n c) := by
    rw [extractStridedSlice_apply _ _ _ (ix2 n c) (ix2 n (⟨c.val, by omega⟩ : Fin 128)) (fun a => by
      match a with
      | ⟨0, _⟩ => show n.val = 0 + n.val; omega
      | ⟨1, _⟩ => show c.val = 0 + c.val; omega)]
    exact convK_left h nrm src dst W2 W3 b2 b3 n c _ rfl
  have hℓ : extractStridedSlice Cert.KernelIdeal.S10000x64 ![0, 64] (convK h nrm src dst W2 W3 b2 b3)
      Cert.KernelIdeal.Facts₀.slices_S10000x128_S10000x64_0_64 (ix2 n c) = convR h nrm src dst W3 b3 (ix2 n c) := by
    rw [extractStridedSlice_apply _ _ _ (ix2 n c) (ix2 n (⟨64 + c.val, by omega⟩ : Fin 128)) (fun a => by
      match a with
      | ⟨0, _⟩ => show n.val = 0 + n.val; omega
      | ⟨1, _⟩ => show 64 + c.val = 64 + c.val; rfl)]
    exact convK_right h nrm src dst W2 W3 b2 b3 n c _ rfl
  exact z_of_halves noise _ _ _ _ (ix2 n c) hμ hℓ

end Agree

end Cert.Bridge

end
-- ==== Proof.Padded.lean ====
/-
  The latent matrix z padded with 240 rows of zeros to 10240 rows and recast to the narrower float format, which
  over the extended reals changes nothing: at a row below 10000 the padded array holds exactly z, and the decode of
  the padded array, which only ever pairs rows below 10000, is the decode of z.
-/
import proofs.«150135_j76733885710552_2_alg».proof.Proof.DecodeArray
import Idealize.ShloMosaic.Lib.KernelVsHost

noncomputable section

namespace Cert.Bridge

open Idealize.ShloMosaic Idealize.ShloMosaic.ValueIdx
open Cert.KernelIdeal

/-- The latent matrix with 240 rows of zeros appended, in the narrower format. -/
def padded (z : (⟨S10000x64, .f32⟩ : BufTy).Contents (Elt Ideal)) : (⟨S10240x64, .bf16⟩ : BufTy).Contents (Elt Ideal) :=
  truncf (F := Ideal) .bf16
    (pad S10240x64 ![0, 0] ![240, 0] ![0, 0] z (sitofp (F := Ideal) .f32 (constantI S_ 32 0#32))
      Facts₀.pads_S10000x64_S10240x64_02400_000 Facts₀.h_S_) Facts₀.bitsLt_bf16_f32

/-- A row below 10000 of the padded array is that row of z. -/
theorem padded_apply (z : (⟨S10000x64, .f32⟩ : BufTy).Contents (Elt Ideal)) (r : Fin 10000) (k : Fin 64) :
    padded z (ix2 (⟨r.val, by omega⟩ : Fin 10240) k) = z (ix2 r k) := by
  unfold padded
  refine (truncf_apply (ψ := .bf16) _ Facts₀.bitsLt_bf16_f32 _).trans ?_
  refine pad_apply_of_inside _ _ _ z _ Facts₀.pads_S10000x64_S10240x64_02400_000 Facts₀.h_S_ _ (ix2 r k) fun a => ?_
  match a with
  | ⟨0, _⟩ => show r.val = 0 + r.val * (0 + 1); omega
  | ⟨1, _⟩ => show k.val = 0 + k.val * (0 + 1); omega

/-- The decode of the padded array is the decode of z: entry (i, j) is the logistic of Σ_k z[i, k] · z[j, k]. -/
theorem decode_padded (z : (⟨S10000x64, .f32⟩ : BufTy).Contents (Elt Ideal)) (i : S10000x10000.Idx) :
    decode (padded z) i = Ideal.logistic (∑ k : Fin 64,
      z (ix2 (⟨(i 0).val, idx2_lt0 i⟩ : Fin 10000) k) * z (ix2 (⟨(i 1).val, idx2_lt1 i⟩ : Fin 10000) k)) := by
  unfold decode
  refine congrArg Ideal.logistic (Finset.sum_congr rfl fun k _ => ?_)
  exact congrArg₂ (· * ·) (padded_apply z ⟨(i 0).val, idx2_lt0 i⟩ k) (padded_apply z ⟨(i 1).val, idx2_lt1 i⟩ k)

end Cert.Bridge

end
-- ==== Proof.KIHostZ.lean ====
/-
  From the hidden layer to the array the kernel is launched on. After the hidden layer the kernel program computes
  the latent matrix by the fused convolution, pads it and recasts it: the array both operand windows read is the
  padded fused latent matrix of what the earlier operations left at the hidden layer, the edge normalisation and
  the two index vectors.
-/
import proofs.«150135_j76733885710552_2_alg».proof.Proof.KIHostRead
import proofs.«150135_j76733885710552_2_alg».proof.Proof.FusedConv
import proofs.«150135_j76733885710552_2_alg».proof.Proof.Padded
import Idealize.ShloMosaic.Lib.StableHlo.Run

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen Cert.KernelIdeal.Hand Cert.KernelIdeal.Facts₀

/-- Running two stretches of host operations one after the other is running the second from where the first
    ends. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => simp only [List.cons_append, after_cons, ih]

/-- The host operations up to the hidden layer, and those after it. -/
abbrev hostPrefix : List (HloOp τ sig (Elt Ideal)) :=
  List.flatten [hostOps0, hostOps0_1, hostOps0_2, hostOps0_3, hostOps0_4, hostOps0_5]
abbrev hostSuffix : List (HloOp τ sig (Elt Ideal)) := List.flatten [hostOps0_6, hostOps0_7, hostOps0_8]

theorem ops_split :
    (List.flatten [hostOps0, hostOps0_1, hostOps0_2, hostOps0_3, hostOps0_4, hostOps0_5, hostOps0_6, hostOps0_7, hostOps0_8]
      : List (HloOp τ sig (Elt Ideal))) = hostPrefix ++ hostSuffix :=
  List.flatten_append (L₁ := [hostOps0, hostOps0_1, hostOps0_2, hostOps0_3, hostOps0_4, hostOps0_5])
    (L₂ := [hostOps0_6, hostOps0_7, hostOps0_8])

set_option maxRecDepth 16384 in
set_option maxHeartbeats 4000000 in
/-- From any contents W of the buffers, the operations after the hidden layer leave in the launched array the
    padded fused latent matrix of what W holds at the hidden layer, the edge normalisation, the two index vectors
    and the five arguments they read. -/
theorem suffix_read (W : Valuation τ sig (Elt Ideal)) :
    after hostSuffix W (Proc.devRef .tc main_v80)
      = padded (zK (W (Proc.devRef .tc main_v54)) (W (Proc.devRef .tc main_v36)) (W (Proc.devRef .tc main_v8)) (W (Proc.devRef .tc main_v10))
          (W (Proc.devRef .tc main_arg3)) (W (Proc.devRef .tc main_arg6)) (W (Proc.devRef .tc main_arg8)) (W (Proc.devRef .tc main_arg7)) (W (Proc.devRef .tc main_arg9))) := by
  simp only [hostSuffix, hostOps0_6, hostOps0_7, hostOps0_8,
    List.flatten_cons, List.flatten_nil, List.append_nil, List.cons_append, List.nil_append]
  after_results_simp
  simp only [TRef.toBuf, TRef.ofBuf, cast_eq]
  rfl

set_option maxRecDepth 16384 in
set_option maxHeartbeats 4000000 in
/-- Those operations write none of the nine buffers they read there. -/
theorem suffix_keeps (W : Valuation τ sig (Elt Ideal)) :
    after hostSuffix W (Proc.devRef .tc main_v54) = W (Proc.devRef .tc main_v54)
    ∧ after hostSuffix W (Proc.devRef .tc main_v36) = W (Proc.devRef .tc main_v36)
    ∧ after hostSuffix W (Proc.devRef .tc main_v8) = W (Proc.devRef .tc main_v8)
    ∧ after hostSuffix W (Proc.devRef .tc main_v10) = W (Proc.devRef .tc main_v10)
    ∧ after hostSuffix W (Proc.devRef .tc main_arg3) = W (Proc.devRef .tc main_arg3)
    ∧ after hostSuffix W (Proc.devRef .tc main_arg6) = W (Proc.devRef .tc main_arg6)
    ∧ after hostSuffix W (Proc.devRef .tc main_arg8) = W (Proc.devRef .tc main_arg8)
    ∧ after hostSuffix W (Proc.devRef .tc main_arg7) = W (Proc.devRef .tc main_arg7)
    ∧ after hostSuffix W (Proc.devRef .tc main_arg9) = W (Proc.devRef .tc main_arg9) := by
  simp only [hostSuffix, hostOps0_6, hostOps0_7, hostOps0_8,
    List.flatten_cons, List.flatten_nil, List.append_nil, List.cons_append, List.nil_append]
  refine ⟨?_, ?_, ?_, ?_, ?_, ?_, ?_, ?_, ?_⟩ <;> after_results_simp

variable (m : (ℓ : Loc nD τ sig) → Buf (Elt Ideal) ℓ)

/-- The contents at the region's entry: the later operations run from where the earlier ones end. -/
theorem V_split (c : Dev nD) (b : Ref sig .tc) :
    V m c b = after hostSuffix (after hostPrefix (fun b => m (c, b))) (Proc.devRef .tc b) := by
  dsimp only [V]
  rw [ops_split, after_append]

/-- The array the kernel is launched on: the padded fused latent matrix of the hidden layer, the edge
    normalisation, the two index vectors and the arguments as the program's own buffers hold them. -/
theorem launched_on (c : Dev nD) :
    V m c main_v80 = padded (zK (V m c main_v54) (V m c main_v36) (V m c main_v8) (V m c main_v10)
      (V m c main_arg3) (V m c main_arg6) (V m c main_arg8) (V m c main_arg7) (V m c main_arg9)) := by
  obtain ⟨k54, k36, k8, k10, k3, k6, k8a, k7, k9⟩ := suffix_keeps (after hostPrefix (fun b => m (c, b)))
  rw [V_split m c main_v80, V_split m c main_v54, V_split m c main_v36, V_split m c main_v8, V_split m c main_v10,
    V_split m c main_arg3, V_split m c main_arg6, V_split m c main_arg8, V_split m c main_arg7, V_split m c main_arg9,
    k54, k36, k8, k10, k3, k6, k8a, k7, k9]
  exact suffix_read _

end Cert.Bridge

end
-- ==== Proof.RefDecode.lean ====
/-
  The reference's last operations, at an entry. From the latent matrix z (10000 rows of 64 coordinates) the
  reference forms z · zᵀ, negates it, exponentiates, adds one and divides one by the sum: entry (i, j) of its
  result is 1 / (1 + e^(−s)) with s = Σ_k z[i, k] · z[j, k], which over the extended reals is the logistic
  function of s by definition (with its limits 0 at −∞ and 1 at +∞).
-/
import proofs.«150135_j76733885710552_2_alg».proof.Proof.Gen.ReferenceIdeal.Read
import Idealize.ShloMosaic.Lib.ValueIdx

noncomputable section

namespace Cert.Bridge

open Idealize.ShloMosaic Idealize.ShloMosaic.ValueIdx
open Cert.ReferenceIdeal Cert.ReferenceIdeal.Read

/-- The single-precision word of 1.0 denotes the real number one. -/
theorem one_f32 : Ideal.ofBits .f32 0x3F800000#32 = 1 := by
  simp [Ideal.ofBits, Ideal.ieee, -EReal.coe_mul]; norm_num

/-- One divided by one plus the exponential of the negation, in the host's operations, is the logistic function:
    by definition over the extended reals, limits included. -/
theorem logistic_spelled (s : EReal) :
    FloatOps.hostDivf (F := Ideal) (φ := .f32) (FloatOps.ofBits (F := Ideal) .f32 0x3F800000#32)
      (FloatOps.addf (FloatOps.ofBits (F := Ideal) .f32 0x3F800000#32) (FloatOps.hostUnary .exp (FloatOps.hostNegf s)))
      = Ideal.logistic s := by
  simp only [Ideal.ofBits_def, one_f32]
  rfl

/-- Entry (i, j) of the reference's result: the logistic of the inner product of rows i and j of z. -/
theorem ref_out_apply (x0 : (⟨S10000x256, .f32⟩ : BufTy).Contents (Elt Ideal)) (x1 : (⟨S2x160000, .i32⟩ : BufTy).Contents (Elt Ideal))
    (x2 : (⟨S160000, .f32⟩ : BufTy).Contents (Elt Ideal)) (x3 : (⟨S10000x64, .f32⟩ : BufTy).Contents (Elt Ideal))
    (x4 : (⟨S256x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal))
    (x8 : (⟨S128x64, .f32⟩ : BufTy).Contents (Elt Ideal)) (x9 : (⟨S64, .f32⟩ : BufTy).Contents (Elt Ideal))
    (i : S10000x10000.Idx) :
    val_main_v99 (F := Ideal) x0 x1 x2 x3 x4 x5 x6 x7 x8 x9 i
      = Ideal.logistic (∑ k : Fin 64,
          val_main_v91 (F := Ideal) x0 x1 x2 x3 x4 x5 x6 x7 x8 x9 (ix2 (⟨(i 0).val, idx2_lt0 i⟩ : Fin 10000) k)
          * val_main_v91 (F := Ideal) x0 x1 x2 x3 x4 x5 x6 x7 x8 x9 (ix2 (⟨(i 1).val, idx2_lt1 i⟩ : Fin 10000) k)) := by
  rw [val_main_v99_apply, val_main_v98_apply, val_main_cst_18_apply, val_main_v97_apply, val_main_v96_apply,
    val_main_cst_17_apply, val_main_v95_apply, val_main_v94_apply, val_main_v93_apply]
  simp only [val_main_v92_apply]
  have el : ∀ k : Fin 64, lidx_main_v93 i k = ix2 (⟨(i 0).val, idx2_lt0 i⟩ : Fin 10000) k := fun k =>
    funext fun a => Fin.ext (by match a with | ⟨0, _⟩ => rfl | ⟨1, _⟩ => rfl)
  have er : ∀ k : Fin 64, idx_main_v92 (ridx_main_v93 i k) = ix2 (⟨(i 1).val, idx2_lt1 i⟩ : Fin 10000) k := fun k =>
    funext fun a => Fin.ext (by match a with | ⟨0, _⟩ => rfl | ⟨1, _⟩ => rfl)
  refine (logistic_spelled _).trans (congrArg Ideal.logistic (Finset.sum_congr rfl fun k _ => ?_))
  rw [el k, er k]

end Cert.Bridge

end
-- ==== Proof.Agree.lean ====
/-
  The two results are one array. From arguments that agree, the reference's result at entry (i, j) is the logistic
  of the inner product of rows i and j of ITS latent matrix (two convolutions), and the kernel program's result
  there is the logistic of the inner product of rows i and j of ITS latent matrix (one fused convolution, padded,
  decoded block by block). The hidden layer, the edge normalisation and the index vectors are the same stages in
  both programs, and the fused convolution's two halves are the two convolutions, so the latent matrices are
  equal and with them every entry of the results.
-/
import proofs.«150135_j76733885710552_2_alg».proof.Proof.KIHostZ
import proofs.«150135_j76733885710552_2_alg».proof.Proof.RefDecode

noncomputable section

namespace Cert.Bridge

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ)

/-- The reference's latent matrix, of the kernel program's own arguments, is the fused latent matrix the kernel
    program pads and launches on. -/
theorem latent_agree (c : Dev nD) :
    Cert.ReferenceIdeal.Read.val_main_v91 (F := Ideal) (a0 m c) (a1 m c) (a2 m c) (a3 m c) (a4 m c) (a5 m c) (a6 m c) (a7 m c) (a8 m c) (a9 m c)
      = zK (V m c main_v54) (V m c main_v36) (V m c main_v8) (V m c main_v10)
          (V m c main_arg3) (V m c main_arg6) (V m c main_arg8) (V m c main_arg7) (V m c main_arg9) := by
  rw [hid_eq, nrm_eq, src_eq, dst_eq, V_main_arg3, V_main_arg6, V_main_arg8, V_main_arg7, V_main_arg9, z_fused_eq]
  rfl

/-- From arguments that agree the reference's result is the decode of the array the kernel is launched on. -/
theorem results_agree (m' : (ℓ : Loc Cert.ReferenceIdeal.nD Cert.ReferenceIdeal.τ Cert.ReferenceIdeal.sig) → Buf (Elt Ideal) ℓ) (c : Dev nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v99 m' c = decode (V m c main_v80) := by
  obtain ⟨h0, h1, h2, h3, h4, h5, h6, h7, h8, h9⟩ := h
  rw [Cert.ReferenceIdeal.Read.val_main_v99_eq, h0, h1, h2, h3, h4, h5, h6, h7, h8, h9]
  funext i
  rw [launched_on, decode_padded, ← latent_agree]
  exact ref_out_apply _ _ _ _ _ _ _ _ _ _ i

end Cert.Bridge

end
-- ==== Proof.RefRead.lean ====
/-
  The reference's run and its read-at-an-index lemmas, brought in for the bridge.
-/
import proofs.«150135_j76733885710552_2_alg».proof.Proof.Gen.ReferenceIdeal.Run
import proofs.«150135_j76733885710552_2_alg».proof.Proof.Gen.ReferenceIdeal.Read
-- ==== Proof.lean ====
/-
  The certificate of the graph auto-encoder's decode kernel against its reference, over the extended reals.

  Both programs compute a latent matrix z (10000 nodes, 64 coordinates) by two rounds of normalised graph
  convolution and return the logistic of z · zᵀ. They differ in two places. The kernel program computes the mean and
  the log-deviation halves of z by ONE convolution with the two weight matrices side by side and slices the result,
  where the reference runs two convolutions: column by column the two are the same sums. And the kernel program
  pads z with zero rows to a multiple of its block size and decodes it on a 5 × 5 grid of 2048 × 2048 blocks, both
  operand windows reading the one padded array, the edge blocks cut at the array's end: every entry of the result
  is written by the block that covers it, from rows of z below 10000 only, so the padding is never seen. The
  logistic function is one function in both programs (the reference spells it 1 / (1 + e^(−s))). No law used
  needs the arguments to be finite: only equal summands are exchanged.

  The frames of the two kernel programs are proved over the launch of a region whose input windows share an
  array (the array is dealt out to the two windows at half shares); the reference's frame is its run.
-/
import proofs.«150135_j76733885710552_2_alg».proof.Defs
import proofs.«150135_j76733885710552_2_alg».proof.Proof.Gen.Pre_finite_inputs
import proofs.«150135_j76733885710552_2_alg».proof.Proof.KFrame
import proofs.«150135_j76733885710552_2_alg».proof.Proof.KIValue
import proofs.«150135_j76733885710552_2_alg».proof.Proof.Agree
import proofs.«150135_j76733885710552_2_alg».proof.Proof.RefRead
import Idealize.ShloMosaic.Adequacy
import Idealize.ShloMosaic.Init

noncomputable section

namespace Cert.Proof

open Idealize.ShloMosaic Idealize.SL.Sem

/-- The word-level kernel program runs to the end, faults nowhere and leaves its arguments as they were. -/
theorem frame_kernel : Cert.frame_Kernel := fun m ρ _ => Cert.Kernel.Hand.frame m ρ

/-- So does the kernel program read over the extended reals. -/
theorem frame_kernelIdeal : Cert.frame_KernelIdeal := fun m ρ _ => Cert.KernelIdeal.Hand.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree both programs run, and end with the same result: the decode of the padded latent
    array, which is the reference's logistic of z · zᵀ entry for entry. -/
theorem algebraic : Cert.algebraic_KernelIdeal_ReferenceIdeal := by
  intro m ρ m' ρ' _ hagree
  refine ⟨fun c => Cert.Bridge.decode (Cert.KernelIdeal.Hand.V m c Cert.KernelIdeal.main_v80), Cert.Bridge.kernel_value m ρ, ?_⟩
  refine (θ_run Cert.ReferenceIdeal.defs _ _).mono (fun _ h c => ⟨(h c).1.trans ?_, (h c).2⟩)
    (Cert.ReferenceIdeal.Value.run (F := Ideal) m' ρ')
  exact Cert.Bridge.results_agree m m' c (hagree c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
